-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S10x4096 : Shape := ⟨2, ![10, 4096]⟩
abbrev S100000x10 : Shape := ⟨2, ![100000, 10]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S10x4096 : S_.BroadcastsInDim S10x4096 (![] : Fin 0 → Fin S10x4096.rank)
  reducesTo_S10x4096_S_d0_1 : S10x4096.ReducesTo [0, 1] S_
  bcast_S_S100000x10 : S_.BroadcastsInDim S100000x10 (![] : Fin 0 → Fin S100000x10.rank)
  reducesTo_S100000x10_S_d0_1 : S100000x10.ReducesTo [0, 1] S_

variable [Facts]

def fn {F : FTy → Type} [FloatOps F] (main_arg0 : FVec F S4096x8192 .f32) (main_arg1 : IVec S8192 32) (main_arg2 : FVec F S10x4096 .f32) (main_arg3 : FVec F S100000x10 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S10x4096 .f32 := Host.absf main_arg2
  let main_cst_0 : FVec F S_ .f32 := constant S_ .f32 0x7F800000#32
  let main_v5 : FVec F S10x4096 .f32 := broadcastInDim S10x4096 ![] bcast_S_S10x4096 main_cst_0
  let main_v6 : IVec S10x4096 1 := cmpf .olt main_v4 main_v5
  let main_c_1 : IVec S_ 1 := constantI S_ 1 1#1
  let main_v7 : IVec S_ 1 := (fun x v => Host.reduce IntOp.andi x v reducesTo_S10x4096_S_d0_1 h_S_) main_v6 main_c_1
  let main_v8 : IVec S_ 1 := andi main_v3 main_v7
  let main_v9 : FVec F S100000x10 .f32 := Host.absf main_arg3
  let main_cst_2 : FVec F S_ .f32 := constant S_ .f32 0x7F800000#32
  let main_v10 : FVec F S100000x10 .f32 := broadcastInDim S100000x10 ![] bcast_S_S100000x10 main_cst_2
  let main_v11 : IVec S100000x10 1 := cmpf .olt main_v9 main_v10
  let main_c_3 : IVec S_ 1 := constantI S_ 1 1#1
  let main_v12 : IVec S_ 1 := (fun x v => Host.reduce IntOp.andi x v reducesTo_S100000x10_S_d0_1 h_S_) main_v11 main_c_3
  let main_v13 : IVec S_ 1 := andi main_v8 main_v12
  main_v13
-- ==== Kernel.lean ====
abbrev S4096x8192 : Shape := ⟨2, ![4096, 8192]⟩
abbrev S8192 : Shape := ⟨1, ![8192]⟩
abbrev S10x4096 : Shape := ⟨2, ![10, 4096]⟩
abbrev S100000x10 : Shape := ⟨2, ![100000, 10]⟩
abbrev S_ : Shape := ⟨0, ![]⟩
abbrev S8192x1 : Shape := ⟨2, ![8192, 1]⟩
abbrev S8192x10 : Shape := ⟨2, ![8192, 10]⟩
abbrev S4096x10 : Shape := ⟨2, ![4096, 10]⟩
abbrev S10x8192 : Shape := ⟨2, ![10, 8192]⟩
abbrev S4x8x128 : Shape := ⟨3, ![4, 8, 128]⟩
abbrev S1024x2048 : Shape := ⟨2, ![1024, 2048]⟩
abbrev S1024x10 : Shape := ⟨2, ![1024, 10]⟩
abbrev S10x2048 : Shape := ⟨2, ![10, 2048]⟩
abbrev S1x8x128 : Shape := ⟨3, ![1, 8, 128]⟩
abbrev S1x1 : Shape := ⟨2, ![1, 1]⟩
abbrev S256x2048 : Shape := ⟨2, ![256, 2048]⟩
abbrev S256x10 : Shape := ⟨2, ![256, 10]⟩
abbrev S256 : Shape := ⟨1, ![256]⟩
abbrev S256x1 : Shape := ⟨2, ![256, 1]⟩
abbrev S1 : Shape := ⟨1, ![1]⟩
abbrev S8x128 : Shape := ⟨2, ![8, 128]⟩
abbrev S10 : Shape := ⟨1, ![10]⟩

abbrev nBuf : Space → Nat
  | .hbm => 51
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S10x4096, .f32⟩
  | .hbm, ⟨3, _⟩ => ⟨S100000x10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000x10, .f32⟩
  | .hbm, ⟨8, _⟩ => ⟨S100000x10, .f32⟩
  | .hbm, ⟨9, _⟩ => ⟨S_, .f32⟩
  | .hbm, ⟨10, _⟩ => ⟨S100000x10, .f32⟩
  | .hbm, ⟨11, _⟩ => ⟨S100000x10, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x10, .f32⟩
  | .hbm, ⟨21, _⟩ => ⟨S4096x10, .f32⟩
  | .hbm, ⟨22, _⟩ => ⟨S10x8192, .f32⟩
  | .hbm, ⟨23, _⟩ => ⟨S4x8x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S10, .f32⟩
  | .hbm, ⟨30, _⟩ => ⟨S8192x10, .f32⟩
  | .hbm, ⟨31, _⟩ => ⟨S_, .f32⟩
  | .hbm, ⟨32, _⟩ => ⟨S_, .f32⟩
  | .hbm, ⟨33, _⟩ => ⟨S4096x10, .f32⟩
  | .hbm, ⟨34, _⟩ => ⟨S_, .f32⟩
  | .hbm, ⟨35, _⟩ => ⟨S_, .f32⟩
  | .hbm, ⟨36, _⟩ => ⟨S10, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x10, .f32⟩
  | .local _ .vmem, ⟨3, _⟩ => ⟨S1024x10, .f32⟩
  | .local _ .vmem, ⟨4, _⟩ => ⟨S10x2048, .f32⟩
  | .local _ .vmem, ⟨5, _⟩ => ⟨S10x2048, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_cst_8 : Ref sig .tc := ⟨.hbm, 40, rfl⟩
abbrev main_v21 : Ref sig .tc := ⟨.hbm, 41, rfl⟩
abbrev main_cst_9 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_10 : Ref sig .tc := ⟨.hbm, 46, rfl⟩
abbrev main_v25 : Ref sig .tc := ⟨.hbm, 47, rfl⟩
abbrev main_cst_11 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_2 : BitVec 32 := 0#32
  let c4_i32 : BitVec 32 := 4#32
  let v6 : BitVec 32 := Scalar.addi c0_i32_2 c4_i32
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c256_i32 : BitVec 32 := 256#32
  let v16 : BitVec 32 := Scalar.muli arg7 c256_i32
  v16
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c256_i32 : BitVec 32 := 256#32
  let v16 : BitVec 32 := Scalar.muli arg7 c256_i32
  let v17 : BitVec 32 := v16
  let v18 : Index := Scalar.indexCast v17
  let c0_9 : Index := 0#32
  ![v18.toNat, 0]
def k0_off2 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c256_i32 : BitVec 32 := 256#32
  let v16 : BitVec 32 := Scalar.muli arg7 c256_i32
  let v17 : BitVec 32 := v16
  let v20 : Index := Scalar.indexCast v17
  let c0_10 : Index := 0#32
  ![v20.toNat, 0]
def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S10x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S100000x10 : S_.BroadcastsInDim S100000x10 (![] : Fin 0 → Fin S100000x10.rank)
  bcast_S_S8192 : S_.BroadcastsInDim S8192 (![] : Fin 0 → Fin S8192.rank)
  bcast_S8192_S8192x1_0 : S8192.BroadcastsInDim S8192x1 (![0] : Fin 1 → Fin S8192x1.rank)
  transposes_S10x4096_S4096x10_1_0 : S10x4096.Transposes [1, 0] S4096x10
  transposes_S8192x10_S10x8192_1_0 : S8192x10.Transposes [1, 0] S10x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10x2048_S10x2048_0_0 : ∀ a, (![0, 0] : Fin 2 → Nat) a + S10x2048.size a ≤ S10x2048.size a
  h_S10x2048 : 0 < S10x2048.numel
  shapeCasts_S10x2048_S10x2048 : S10x2048.ShapeCasts S10x2048
  h_S256x2048 : 0 < S256x2048.numel
  h_S256x10 : 0 < S256x10.numel
  shapeCasts_S256x10_S256x10 : S256x10.ShapeCasts S256x10
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S4x8x128_S_d0_1_2 : S4x8x128.ReducesTo [0, 1, 2] S_
  h_S_ : 0 < S_.numel
  reducesTo_S8192x10_S10_d0 : S8192x10.ReducesTo [0] S10
  reducesTo_S8192x10_S_d0_1 : S8192x10.ReducesTo [0, 1] S_
  reducesTo_S4096x10_S_d0_1 : S4096x10.ReducesTo [0, 1] S_
  reducesTo_S10_S_d0 : S10.ReducesTo [0] S_
  gather_S100000x10_S8192x1_S8192x10_1_0_n_n_0_1_110_wf : GatherDims.WF S100000x10 S8192x1 S8192x10 [1] [0] [] [0] [] 1 ![1, 10]
  dot_S256x10_S10x2048_S256x2048_1_0_0_1_n_n_wf : DotDims.WF S256x10 S10x2048 S256x2048 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2048.size a ≤ S1024x2048.size a
  k0_off2_inb : ∀ k0_t1 : Fin k0_t1_loop.trips, ∀ a, (k0_off2 k0_t1) a + S256x10.size a ≤ S1024x10.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x8192.size a
  hwx0_0 : ∀ i : grid0.Coords, EltTy.bits .f32 = 32 ∨ (Rect.block (s := S4096x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S4096x10.size a
  hwx0_1 : ∀ i : grid0.Coords, EltTy.bits .f32 = 32 ∨ (Rect.block (s := S4096x10) S1024x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x2048.size a ≤ S10x8192.size a
  hwx0_2 : ∀ i : grid0.Coords, EltTy.bits .f32 = 32 ∨ (Rect.block (s := S10x8192) S10x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

def gather_S100000x10_S8192x1_S8192x10_1_0_n_n_0_1_110 : GatherDims S100000x10 S8192x1 S8192x10 where
  offsetDims := [1]
  collapsedSliceDims := [0]
  operandBatchingDims := []
  startIndicesBatchingDims := []
  startIndexMap := [0]
  indexVectorDim := 1
  sliceSizes := ![1, 10]
  wf := gather_S100000x10_S8192x1_S8192x10_1_0_n_n_0_1_110_wf
def dot_S256x10_S10x2048_S256x2048_1_0_0_1_n_n : DotDims S256x10 S10x2048 S256x2048 where
  lhsContracting := [1]
  rhsContracting := [0]
  lhsNonContracting := [0]
  rhsNonContracting := [1]
  lhsBatch := []
  rhsBatch := []
  wf := dot_S256x10_S10x2048_S256x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192 : Shape := ⟨1, ![8192]⟩
abbrev S10x4096 : Shape := ⟨2, ![10, 4096]⟩
abbrev S100000x10 : Shape := ⟨2, ![100000, 10]⟩
abbrev S_ : Shape := ⟨0, ![]⟩
abbrev S8192x1 : Shape := ⟨2, ![8192, 1]⟩
abbrev S8192x10 : Shape := ⟨2, ![8192, 10]⟩
abbrev S4096x10 : Shape := ⟨2, ![4096, 10]⟩
abbrev S10x8192 : Shape := ⟨2, ![10, 8192]⟩
abbrev S8192x8192 : Shape := ⟨2, ![8192, 8192]⟩
abbrev S10x10 : Shape := ⟨2, ![10, 10]⟩

abbrev nBuf : Space → Nat
  | .hbm => 64
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S10x4096, .f32⟩
  | .hbm, ⟨3, _⟩ => ⟨S100000x10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000x10, .f32⟩
  | .hbm, ⟨8, _⟩ => ⟨S100000x10, .f32⟩
  | .hbm, ⟨9, _⟩ => ⟨S_, .f32⟩
  | .hbm, ⟨10, _⟩ => ⟨S100000x10, .f32⟩
  | .hbm, ⟨11, _⟩ => ⟨S100000x10, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x10, .f32⟩
  | .hbm, ⟨21, _⟩ => ⟨S4096x10, .f32⟩
  | .hbm, ⟨22, _⟩ => ⟨S10x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x10, .f32⟩
  | .hbm, ⟨33, _⟩ => ⟨S_, .f32⟩
  | .hbm, ⟨34, _⟩ => ⟨S_, .f32⟩
  | .hbm, ⟨35, _⟩ => ⟨S10x8192, .f32⟩
  | .hbm, ⟨36, _⟩ => ⟨S10x8192, .f32⟩
  | .hbm, ⟨37, _⟩ => ⟨S10x10, .f32⟩
  | .hbm, ⟨38, _⟩ => ⟨S10x10, .i32⟩
  | .hbm, ⟨39, _⟩ => ⟨S10x10, .i32⟩
  | .hbm, ⟨40, _⟩ => ⟨S_, .i32⟩
  | .hbm, ⟨41, _⟩ => ⟨S10x10, .i32⟩
  | .hbm, ⟨42, _⟩ => ⟨S10x10, .i32⟩
  | .hbm, ⟨43, _⟩ => ⟨S10x10, .i1⟩
  | .hbm, ⟨44, _⟩ => ⟨S_, .f32⟩
  | .hbm, ⟨45, _⟩ => ⟨S10x10, .f32⟩
  | .hbm, ⟨46, _⟩ => ⟨S10x10, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x10, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_c : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_cst : Ref sig .tc := ⟨.hbm, 44, rfl⟩
abbrev main_call1_v5 : Ref sig .tc := ⟨.hbm, 45, rfl⟩
abbrev main_call1_v6 : Ref sig .tc := ⟨.hbm, 46, rfl⟩
abbrev main_call1_cst_0 : Ref sig .tc := ⟨.hbm, 47, rfl⟩
abbrev main_v21 : Ref sig .tc := ⟨.hbm, 48, rfl⟩
abbrev main_v22 : Ref sig .tc := ⟨.hbm, 49, rfl⟩
abbrev main_cst_6 : Ref sig .tc := ⟨.hbm, 50, rfl⟩
abbrev main_v23 : Ref sig .tc := ⟨.hbm, 51, rfl⟩
abbrev main_cst_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_8 : Ref sig .tc := ⟨.hbm, 56, rfl⟩
abbrev main_v27 : Ref sig .tc := ⟨.hbm, 57, rfl⟩
abbrev main_v28 : Ref sig .tc := ⟨.hbm, 58, rfl⟩
abbrev main_cst_9 : Ref sig .tc := ⟨.hbm, 59, rfl⟩
abbrev main_v29 : Ref sig .tc := ⟨.hbm, 60, rfl⟩
abbrev main_cst_10 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]

class Facts₀ : Prop where
  bcast_S_S100000x10 : S_.BroadcastsInDim S100000x10 (![] : Fin 0 → Fin S100000x10.rank)
  bcast_S_S8192 : S_.BroadcastsInDim S8192 (![] : Fin 0 → Fin S8192.rank)
  bcast_S8192_S8192x1_0 : S8192.BroadcastsInDim S8192x1 (![0] : Fin 1 → Fin S8192x1.rank)
  transposes_S10x4096_S4096x10_1_0 : S10x4096.Transposes [1, 0] S4096x10
  transposes_S8192x10_S10x8192_1_0 : S8192x10.Transposes [1, 0] S10x8192
  reducesTo_S4096x8192_S_d0_1 : S4096x8192.ReducesTo [0, 1] S_
  h_S_ : 0 < S_.numel
  bcast_S_S8192x8192 : S_.BroadcastsInDim S8192x8192 (![] : Fin 0 → Fin S8192x8192.rank)
  reducesTo_S8192x10_S_d0_1 : S8192x10.ReducesTo [0, 1] S_
  bcast_S_S10x10 : S_.BroadcastsInDim S10x10 (![] : Fin 0 → Fin S10x10.rank)
  reducesTo_S10x10_S_d0_1 : S10x10.ReducesTo [0, 1] S_
  reducesTo_S4096x10_S_d0_1 : S4096x10.ReducesTo [0, 1] S_
  gather_S100000x10_S8192x1_S8192x10_1_0_n_n_0_1_110_wf : GatherDims.WF S100000x10 S8192x1 S8192x10 [1] [0] [] [0] [] 1 ![1, 10]
  dot_S4096x10_S10x8192_S4096x8192_1_0_0_1_n_n_wf : DotDims.WF S4096x10 S10x8192 S4096x8192 [1] [0] [0] [1] [] []
  dot_S10x8192_S8192x8192_S10x8192_1_0_0_1_n_n_wf : DotDims.WF S10x8192 S8192x8192 S10x8192 [1] [0] [0] [1] [] []
  dot_S10x8192_S8192x10_S10x10_1_0_0_1_n_n_wf : DotDims.WF S10x8192 S8192x10 S10x10 [1] [0] [0] [1] [] []

variable [Facts₀]

def gather_S100000x10_S8192x1_S8192x10_1_0_n_n_0_1_110 : GatherDims S100000x10 S8192x1 S8192x10 where
  offsetDims := [1]
  collapsedSliceDims := [0]
  operandBatchingDims := []
  startIndicesBatchingDims := []
  startIndexMap := [0]
  indexVectorDim := 1
  sliceSizes := ![1, 10]
  wf := gather_S100000x10_S8192x1_S8192x10_1_0_n_n_0_1_110_wf
def dot_S4096x10_S10x8192_S4096x8192_1_0_0_1_n_n : DotDims S4096x10 S10x8192 S4096x8192 where
  lhsContracting := [1]
  rhsContracting := [0]
  lhsNonContracting := [0]
  rhsNonContracting := [1]
  lhsBatch := []
  rhsBatch := []
  wf := dot_S4096x10_S10x8192_S4096x8192_1_0_0_1_n_n_wf
def dot_S10x8192_S8192x8192_S10x8192_1_0_0_1_n_n : DotDims S10x8192 S8192x8192 S10x8192 where
  lhsContracting := [1]
  rhsContracting := [0]
  lhsNonContracting := [0]
  rhsNonContracting := [1]
  lhsBatch := []
  rhsBatch := []
  wf := dot_S10x8192_S8192x8192_S10x8192_1_0_0_1_n_n_wf
def dot_S10x8192_S8192x10_S10x10_1_0_0_1_n_n : DotDims S10x8192 S8192x10 S10x10 where
  lhsContracting := [1]
  rhsContracting := [0]
  lhsNonContracting := [0]
  rhsNonContracting := [1]
  lhsBatch := []
  rhsBatch := []
  wf := dot_S10x8192_S8192x10_S10x10_1_0_0_1_n_n_wf

class Facts : Prop extends Facts₀ where

variable [Facts]
-- ==== Proof.KerPieces.lean ====
/-
  What one grid point's body leaves behind, as values.

  The body at a point reads three blocks: `x0`, a [1024, 2048] tile of the data matrix; `x1`, the matching
  [1024, 10] rows of the feature embedding; `x2`, the matching [10, 2048] columns of the transposed sample
  embedding. Its counted loop walks the tile's rows in four chunks of 256 and carries a [1, 1] value: after
  chunk `n` the carried value is the previous one plus that chunk's sum of squared residuals (`k0_pay3`), starting
  from the zero block (`loopVal`). The scratch cell then receives its old contents plus the loop's result
  (`k0_pay4`); at a first column block the old contents are the zero block just stored, elsewhere what the
  point before left. At a last column block the output block is written from the scratch cell (`k0_pay5`).
-/
import proofs.«134916_j36524401885311_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `256 n … 256 n + 255` of the data tile, and of the feature-embedding rows. -/
abbrev chunkX (x0 : Vec F S1024x2048 .f32) (k : Fin k0_t1_loop.trips) : Vec F S256x2048 .f32 :=
  View.ld x0 (Rect.unit (k0_off1 k) S256x2048.size (k0_off1_inb k))
abbrev chunkW (x1 : Vec F S1024x10 .f32) (k : Fin k0_t1_loop.trips) : Vec F S256x10 .f32 :=
  View.ld x1 (Rect.unit (k0_off2 k) S256x10.size (k0_off2_inb k))

/-- The loop's carried value before chunk `n`: from `init`, each chunk adds its sum of squared residuals. -/
def loopVal (x0 : Vec F S1024x2048 .f32) (x1 : Vec F S1024x10 .f32) (x2 : Vec F S10x2048 .f32) (init : FVec F S1x1 .f32) :
    ℕ → FVec F S1x1 .f32
  | 0 => init
  | n + 1 => if h : n < k0_t1_loop.trips then k0_pay3 x2 (loopVal x0 x1 x2 init n) (chunkX x0 ⟨n, h⟩) (chunkW x1 ⟨n, h⟩)
      else loopVal x0 x1 x2 init n

/-- One trip of the loop, on whole staging buffers holding `x0` and `x1`: the carried value plus the chunk's term. -/
theorem trip_eq (𝒱 : Variants) (c : Dev nD) (bd : Option 𝒱.V) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole)
    (v3 : Vec F S10x2048 .f32) (x0 : Vec F S1024x2048 .f32) (x1 : Vec F S1024x10 .f32) (k : Fin k0_t1_loop.trips) (acc : FVec F S1x1 .f32) :
    tripR_k0_t1 (F := F) 𝒱 c bd i a2 h2 a3 h3 a4 h4 a5 h5 a6 h6 v3 (h2.unread x0) (h3.unread x1) k acc
      = k0_pay3 v3 acc (chunkX x0 k) (chunkW x1 k) := by
  unfold tripR_k0_t1 trip_k0_t1
  dsimp only
  simp only [View.readAt_eq_ld, h2.read_unread, h3.read_unread]

/-- The generated recursion over the trips is `loopVal`. -/
theorem st_eq (𝒱 : Variants) (c : Dev nD) (bd : Option 𝒱.V) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole)
    (v3 : Vec F S10x2048 .f32) (x0 : Vec F S1024x2048 .f32) (x1 : Vec F S1024x10 .f32) (init : FVec F S1x1 .f32) :
    ∀ n : ℕ, st_k0_t1 (F := F) 𝒱 c bd i a2 h2 a3 h3 a4 h4 a5 h5 a6 h6 v3 (h2.unread x0) (h3.unread x1) init n
      = loopVal x0 x1 v3 init n
  | 0 => rfl
  | n + 1 => by
    rw [st_k0_t1.eq_2, loopVal]
    unfold st_k0_t1Step
    by_cases h : n < k0_t1_loop.trips
    · rw [dif_pos h, dif_pos h, st_eq 𝒱 c bd i a2 h2 a3 h3 a4 h4 a5 h5 a6 h6 v3 x0 x1 init n]
      exact trip_eq 𝒱 c bd i a2 h2 a3 h3 a4 h4 a5 h5 a6 h6 v3 x0 x1 ⟨n, h⟩ _
    · rw [dif_neg h, dif_neg h, st_eq 𝒱 c bd i a2 h2 a3 h3 a4 h4 a5 h5 a6 h6 v3 x0 x1 init n]

/-- What the loop returns at a point: its carried value after all the trips, from the zero block. -/
abbrev loopOut (x0 : Vec F S1024x2048 .f32) (x1 : Vec F S1024x10 .f32) (x2 : Vec F S10x2048 .f32) : FVec F S1x1 .f32 :=
  loopVal x0 x1 x2 (k0_pay2 (F := F)) k0_t1_loop.trips

/-- A middle column block: the scratch cell ends at its old contents plus the loop's result. -/
theorem scratch_B (c : Dev nD) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole) (hc0 : ¬cond0_0 i) (hc1 : ¬cond0_1 i)
    (x0 : Vec F S1024x2048 .f32) (x1 : Vec F S1024x10 .f32) (x2 : Vec F S10x2048 .f32) (xs0 : Vec F S1x1 .f32) :
    sout0_B_0 c i a2 h2 a3 h3 a4 h4 a5 h5 a6 h6 hc0 hc1 x0 x1 x2 xs0 = k0_pay4 (loopOut x0 x1 x2) xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz2]
  simp only [View.readAt_eq_ld, h4.read_unread, h6.read_unread, View.ld_unit_zero (S := S10x2048) hz2,
    View.ld_unit_zero (S := S1x1) hz2, st_eq]

/-- A last column block: the same for the scratch cell, -/
theorem scratch_C (c : Dev nD) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole) (hc0 : ¬cond0_0 i) (hc1 : cond0_1 i)
    (x0 : Vec F S1024x2048 .f32) (x1 : Vec F S1024x10 .f32) (x2 : Vec F S10x2048 .f32) (xs0 : Vec F S1x1 .f32) :
    sout0_C_0 c i a2 h2 a3 h3 a4 h4 a5 h5 a6 h6 hc0 hc1 x0 x1 x2 xs0 = k0_pay4 (loopOut x0 x1 x2) xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h4.read_unread, h6.read_unread, View.ld_unit_zero (S := S10x2048) hz2,
    View.ld_unit_zero (S := S1x1) hz2, st_eq]

/-- and the output block is written from the scratch cell's new contents. -/
theorem out_C (c : Dev nD) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole) (hc0 : ¬cond0_0 i) (hc1 : cond0_1 i)
    (x0 : Vec F S1024x2048 .f32) (x1 : Vec F S1024x10 .f32) (x2 : Vec F S10x2048 .f32) (xs0 : Vec F S1x1 .f32) :
    out0_C_3 c i a2 h2 a3 h3 a4 h4 a5 h5 a6 h6 hc0 hc1 x0 x1 x2 xs0 = k0_pay5 (k0_pay4 (loopOut x0 x1 x2) xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S1x8x128) hz3, View.readCov_unit_zero (S := S1x1) _ hz2]
  simp only [View.readAt_eq_ld, h4.read_unread, h6.read_unread, View.ld_unit_zero (S := S10x2048) hz2,
    View.ld_unit_zero (S := S1x1) hz2, st_eq]

/-- A first column block: the scratch cell is first set to the zero block, then receives the loop's result. -/
theorem scratch_A (c : Dev nD) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole) (hc0 : cond0_0 i) (hc1 : ¬cond0_1 i)
    (x0 : Vec F S1024x2048 .f32) (x1 : Vec F S1024x10 .f32) (x2 : Vec F S10x2048 .f32) :
    sout0_A_0 c i a2 h2 a3 h3 a4 h4 a5 h5 a6 h6 hc0 hc1 x0 x1 x2 = k0_pay4 (loopOut x0 x1 x2) (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h4.read_unread, View.ld_unit_zero (S := S10x2048) hz2, st_eq]

end Cert.KernelIdeal.KVal

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.KerPayload.lean ====
/-
  The kernel body's payloads read at an index, over the extended reals.

  One trip of the inner loop adds to the running [1, 1] total the sum, over a 256 x 2048 chunk, of the squared
  residual  x(r, l) − ∑ k, w(r, k) · h(k, l): the product into the zero accumulator is the plain sum over k, the
  difference and the square are taken entry by entry, the sum along each row followed by the sum of the resulting
  column is the double sum over the chunk. The store of the total into lane (0, 0) of an [1, 8, 128] tile reads,
  at (u, r, l), the total when r = 0 and l = 0 and zero elsewhere.
-/
import proofs.«134916_j36524401885311_2_alg».proof.Proof.Gen.KernelIdeal.Skeleton
import proofs.«134916_j36524401885311_2_alg».proof.Proof.LibRows
import proofs.«134916_j36524401885311_2_alg».proof.Proof.LibDense
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KVal

open Cert.KernelIdeal Cert.KernelIdeal.Gen Idealize.ShloMosaic Idealize.ShloMosaic.ValueIdx

/-- Column `c` of a matrix with the row coordinate `k` put back is `(k, c)`. -/
theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- The sum along a matrix's columns: at column `c`, the sum over the column. -/
theorem colSum_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (c : Fin b) :
    multiReduction .add [0] ⟨1, ![b]⟩ X acc h hφ hacc (ix1 c) = ∑ r : Fin a, X (ix2 r c) := by
  refine (Ideal.multiReduction_add_single X acc h hφ hacc (ix1 c)).trans ?_
  exact Finset.sum_congr rfl fun k _ => congrArg X (lift_col h c k)

/-- The sum along each row, laid out as a column, summed down the column and laid out as a [1, 1] matrix: at its one
    index, the double sum over the matrix. -/
theorem total_apply {a b : ℕ} (Y : FVec Ideal ⟨2, ![a, b]⟩ .f32) (acc acc' : BitVec 32)
    (h1 : (⟨2, ![a, b]⟩ : Shape).Reduces [1] (⟨1, ![a]⟩ : Shape))
    (h2 : (⟨1, ![a]⟩ : Shape).ShapeCasts ⟨2, ![a, 1]⟩)
    (h3 : (⟨2, ![a, 1]⟩ : Shape).Reduces [0] (⟨1, ![1]⟩ : Shape))
    (h4 : (⟨1, ![1]⟩ : Shape).ShapeCasts ⟨2, ![1, 1]⟩)
    (hφ : FKind.Formats .f32) (hacc : acc = FKind.add.neutral .f32 hφ)
    (hφ' : FKind.Formats .f32) (hacc' : acc' = FKind.add.neutral .f32 hφ')
    (j : (⟨2, ![1, 1]⟩ : Shape).Idx) :
    shapeCast ⟨2, ![1, 1]⟩
        (multiReduction .add [0] ⟨1, ![1]⟩
          (shapeCast ⟨2, ![a, 1]⟩ (multiReduction .add [1] ⟨1, ![a]⟩ Y acc h1 hφ hacc) h2) acc' h3 hφ' hacc') h4 j
      = ∑ r : Fin a, ∑ l : Fin b, Y (ix2 r l) := by
  obtain ⟨u, v, rfl⟩ : ∃ u v, j = ix2 u v := ⟨j 0, j 1, eq_ix2 j⟩
  refine (shapeCast_a_1a_apply _ h4 u v).trans ?_
  refine (colSum_apply _ acc' h3 hφ' hacc' v).trans ?_
  refine Finset.sum_congr rfl fun r _ => ?_
  refine (Cert.LibRows.shapeCast_a_a1_apply _ h2 r v).trans ?_
  exact Cert.LibRows.rowSum_apply Y acc h1 hφ hacc r

/-- One chunk's term: the sum over the 256 x 2048 chunk of the squared residual. -/
def chunkTerm (x2 : FVec Ideal S10x2048 .f32) (xc : FVec Ideal S256x2048 .f32) (wc : FVec Ideal S256x10 .f32) : EReal :=
  ∑ r : Fin 256, ∑ l : Fin 2048,
    (xc (ix2 r l) - ∑ k : Fin 10, wc (ix2 r k) * x2 (ix2 k l)) * (xc (ix2 r l) - ∑ k : Fin 10, wc (ix2 r k) * x2 (ix2 k l))

/-- The squared residual of a chunk at (r, l): the product into the zero accumulator is the plain sum over the
    contracted index; the difference and the square are taken entry by entry. -/
theorem sqResid_apply {M K N : ℕ}
    (wf : DotDims.WF (⟨2, ![M, K]⟩ : Shape) ⟨2, ![K, N]⟩ ⟨2, ![M, N]⟩ [1] [0] [0] [1] [] [])
    (prec : Option ContractPrecision)
    (xc : FVec Ideal ⟨2, ![M, N]⟩ .f32) (wc : FVec Ideal ⟨2, ![M, K]⟩ .f32) (x2 : FVec Ideal ⟨2, ![K, N]⟩ .f32)
    (hw : (⟨2, ![M, K]⟩ : Shape).ShapeCasts ⟨2, ![M, K]⟩) (hx : (⟨2, ![K, N]⟩ : Shape).ShapeCasts ⟨2, ![K, N]⟩)
    (r : Fin M) (l : Fin N) :
    mulf
        (subf xc (matmul (Cert.LibDense.plainOf wf) prec (shapeCast ⟨2, ![M, K]⟩ wc hw) (shapeCast ⟨2, ![K, N]⟩ x2 hx)
          (constant (⟨2, ![M, N]⟩ : Shape) .f32 0x00000000#32)))
        (subf xc (matmul (Cert.LibDense.plainOf wf) prec (shapeCast ⟨2, ![M, K]⟩ wc hw) (shapeCast ⟨2, ![K, N]⟩ x2 hx)
          (constant (⟨2, ![M, N]⟩ : Shape) .f32 0x00000000#32))) (ix2 r l)
      = (xc (ix2 r l) - ∑ k : Fin K, wc (ix2 r k) * x2 (ix2 k l))
          * (xc (ix2 r l) - ∑ k : Fin K, wc (ix2 r k) * x2 (ix2 k l)) := by
  rw [shapeCast_self, shapeCast_self]
  refine (mulf_apply _ _ (ix2 r l)).trans ?_
  rw [subf_apply]
  exact congrArg (fun t => (xc (ix2 r l) - t) * (xc (ix2 r l) - t)) (Cert.LibDense.matmul_zero_plain wf prec wc x2 r l)

/-- One trip's payload: the running total plus the chunk's term. -/
theorem pay3_apply (x2 : Vec Ideal S10x2048 .f32) (acc : FVec Ideal S1x1 .f32) (xc : Vec Ideal S256x2048 .f32)
    (wc : Vec Ideal S256x10 .f32) (j : S1x1.Idx) : k0_pay3 x2 acc xc wc j = acc j + chunkTerm x2 xc wc := by
  unfold k0_pay3
  refine (addf_apply _ _ j).trans (congrArg (acc j + ·) ?_)
  refine (total_apply _ _ _ _ _ _ _ _ _ _ _ j).trans ?_
  unfold chunkTerm
  refine Finset.sum_congr rfl fun r _ => Finset.sum_congr rfl fun l _ => ?_
  exact sqResid_apply dot_S256x10_S10x2048_S256x2048_1_0_0_1_n_n_wf (some ContractPrecision.fp32) xc wc x2 _ _ r l

/-- The last store's payload: the stored total plus the loop's result. -/
theorem pay4_apply (v7 : FVec Ideal S1x1 .f32) (v8 : Vec Ideal S1x1 .f32) (j : S1x1.Idx) :
    k0_pay4 v7 v8 j = v8 j + v7 j := by
  unfold k0_pay4
  rw [shapeCast_self]
  rfl

/-- The first store's payload is the zero matrix. -/
theorem pay1_apply (j : S1x1.Idx) : k0_pay1 (F := Ideal) j = 0 := by
  unfold k0_pay1
  rw [shapeCast_self]
  exact Ideal.ofBits_zero_f32

/-- The loop's initial value is the zero matrix. -/
theorem pay2_apply (j : S1x1.Idx) : k0_pay2 (F := Ideal) j = 0 := by
  unfold k0_pay2
  exact Ideal.ofBits_zero_f32

/-- A 32-bit word made from a number below 2^32 is the zero word exactly when the number is zero. -/
theorem cmpi_eq_zero (n : ℕ) (hn : n < 2 ^ 32) :
    IntOp.cmpi .eq (BitVec.ofNat 32 n) 0#32 = if n = 0 then 1#1 else 0#1 := by
  by_cases h : n = 0
  · subst h; rfl
  · rw [if_neg h]
    have hne : BitVec.ofNat 32 n ≠ 0#32 := fun hh => h (by
      have := congrArg BitVec.toNat hh
      rw [BitVec.toNat_ofNat, Nat.mod_eq_of_lt hn] at this
      exact this)
    have hb : (BitVec.ofNat 32 n == 0#32) = false := beq_eq_false_iff_ne.mpr hne
    show BitVec.ofBool (BitVec.ofNat 32 n == 0#32) = 0#1
    rw [hb]
    rfl

/-- The mask "row 0 and lane 0" of an [8, 128] tile, from the two coordinate vectors compared with zero. -/
theorem lane00_cond (h0 : S8x128.Iotas .tc 32 [0]) (h1 : S8x128.Iotas .tc 32 [1]) (r : Fin 8) (l : Fin 128) :
    andi (cmpi .eq (iota .tc S8x128 32 [0] h0) (broadcast S8x128 0#32))
        (cmpi .eq (iota .tc S8x128 32 [1] h1) (broadcast S8x128 0#32)) (ix2 r l)
      = if r.val = 0 ∧ l.val = 0 then 1#1 else 0#1 := by
  show IntOp.andi (IntOp.cmpi .eq (iota .tc S8x128 32 [0] h0 (ix2 r l)) 0#32)
      (IntOp.cmpi .eq (iota .tc S8x128 32 [1] h1 (ix2 r l)) 0#32) = _
  rw [iota_single_apply, iota_single_apply]
  show IntOp.andi (IntOp.cmpi .eq (BitVec.ofNat 32 r.val) 0#32) (IntOp.cmpi .eq (BitVec.ofNat 32 l.val) 0#32) = _
  rw [cmpi_eq_zero _ (by omega), cmpi_eq_zero _ (by omega)]
  by_cases hr : r.val = 0 <;> by_cases hl : l.val = 0 <;> simp [hr, hl, IntOp.andi]

/-- The output tile: the total in lane (0, 0), zero elsewhere. -/
theorem pay5_apply (v : Vec Ideal S1x1 .f32) (u : Fin 1) (r : Fin 8) (l : Fin 128) :
    k0_pay5 v (ix3 u r l) = if r.val = 0 ∧ l.val = 0 then v (ix2 (0 : Fin 1) (0 : Fin 1)) else 0 := by
  unfold k0_pay5
  refine (shapeCast_ab_1ab_apply _ _ u r l).trans ?_
  refine (select_apply _ _ _ (ix2 r l)).trans ?_
  rw [lane00_cond]
  by_cases h : r.val = 0 ∧ l.val = 0
  · rw [if_pos h, if_pos h, select_one]
    exact congrArg v (funext fun a => by match a with | ⟨0, _⟩ => rfl | ⟨1, _⟩ => rfl)
  · rw [if_neg h, if_neg h, select_zero]
    exact Ideal.ofBits_zero_f32

end Cert.KernelIdeal.KVal

end
-- ==== Proof.KerPoint.lean ====
/-
  The scratch cell and the output block, point by point, as numbers.

  At grid point `n` the loop returns the tile's sum of squared residuals, chunk by chunk from zero (`tileN n`).
  The scratch cell restarts from zero at a first column block (`n % 4 = 0`) and otherwise keeps adding: after point
  `n` it holds `accN n`. A last column block (`n % 4 = 3`) writes the output block: the scratch cell's value at
  position (0, 0) and zero elsewhere.
-/
import proofs.«134916_j36524401885311_2_alg».proof.Proof.KerPieces
import proofs.«134916_j36524401885311_2_alg».proof.Proof.KerPayload

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

theorem trips_eq : k0_t1_loop.trips = 4 := by decide

/-- Chunk `k` (of four) of a tile, as a trip of the loop. -/
abbrev trip (k : Fin 4) : Fin k0_t1_loop.trips := ⟨k.val, by rw [trips_eq]; exact k.isLt⟩

/-- The loop's result on a tile: the four chunk terms added in order, from zero. -/
theorem loopOut_apply (x0 : Vec Ideal S1024x2048 .f32) (x1 : Vec Ideal S1024x10 .f32) (x2 : Vec Ideal S10x2048 .f32) (j : S1x1.Idx) :
    loopOut x0 x1 x2 j
      = (((0 + chunkTerm x2 (chunkX x0 (trip 0)) (chunkW x1 (trip 0))) + chunkTerm x2 (chunkX x0 (trip 1)) (chunkW x1 (trip 1)))
          + chunkTerm x2 (chunkX x0 (trip 2)) (chunkW x1 (trip 2))) + chunkTerm x2 (chunkX x0 (trip 3)) (chunkW x1 (trip 3)) := by
  have h0 : (0 : ℕ) < k0_t1_loop.trips := by rw [trips_eq]; decide
  have h1 : (1 : ℕ) < k0_t1_loop.trips := by rw [trips_eq]; decide
  have h2 : (2 : ℕ) < k0_t1_loop.trips := by rw [trips_eq]; decide
  have h3 : (3 : ℕ) < k0_t1_loop.trips := by rw [trips_eq]; decide
  show loopVal x0 x1 x2 (k0_pay2 (F := Ideal)) k0_t1_loop.trips j = _
  rw [trips_eq]
  show loopVal x0 x1 x2 (k0_pay2 (F := Ideal)) (3 + 1) j = _
  rw [loopVal, dif_pos h3, pay3_apply]
  show loopVal x0 x1 x2 (k0_pay2 (F := Ideal)) (2 + 1) j + _ = _
  rw [loopVal, dif_pos h2, pay3_apply]
  show loopVal x0 x1 x2 (k0_pay2 (F := Ideal)) (1 + 1) j + _ + _ = _
  rw [loopVal, dif_pos h1, pay3_apply]
  show loopVal x0 x1 x2 (k0_pay2 (F := Ideal)) (0 + 1) j + _ + _ + _ = _
  rw [loopVal, dif_pos h0, pay3_apply]
  show k0_pay2 (F := Ideal) j + _ + _ + _ + _ = _
  rw [pay2_apply]
  rfl

/-- The tile term of point `n` (zero past the grid). -/
def tileN (c : Dev nD) (n : ℕ) : EReal :=
  if h : n < cfg0.N then loopOut (iblk m c 0 ⟨n, h⟩ : Vec Ideal S1024x2048 .f32) (iblk m c 1 ⟨n, h⟩ : Vec Ideal S1024x10 .f32)
    (iblk m c 2 ⟨n, h⟩ : Vec Ideal S10x2048 .f32) (ix2 (0 : Fin 1) (0 : Fin 1)) else 0

/-- What the scratch cell holds after point `n`. -/
def accN (c : Dev nD) : ℕ → EReal
  | 0 => 0 + tileN m c 0
  | n + 1 => if (n + 1) % 4 = 0 then 0 + tileN m c (n + 1) else accN c n + tileN m c (n + 1)

theorem accN_start (c : Dev nD) (n : ℕ) (hn : n % 4 = 0) : accN m c n = 0 + tileN m c n := by
  cases n with
  | zero => rfl
  | succ n => rw [accN, if_pos hn]

theorem accN_step (c : Dev nD) (n : ℕ) (hn : ¬(n + 1) % 4 = 0) : accN m c (n + 1) = accN m c n + tileN m c (n + 1) := by
  rw [accN, if_neg hn]

/-- The [1, 1] shape has the one index (0, 0). -/
theorem idx11 (j : S1x1.Idx) : j = ix2 (0 : Fin 1) (0 : Fin 1) := by
  funext a; apply Fin.ext
  match a with
  | ⟨0, _⟩ => have h : (j 0).val < 1 := (j 0).isLt; show (j 0).val = 0; omega
  | ⟨1, _⟩ => have h : (j 1).val < 1 := (j 1).isLt; show (j 1).val = 0; omega

theorem tileN_eq (c : Dev nD) (n : ℕ) (h : n < cfg0.N) (j : S1x1.Idx) :
    loopOut (iblk m c 0 ⟨n, h⟩ : Vec Ideal S1024x2048 .f32) (iblk m c 1 ⟨n, h⟩ : Vec Ideal S1024x10 .f32)
      (iblk m c 2 ⟨n, h⟩ : Vec Ideal S10x2048 .f32) j = tileN m c n := by
  obtain rfl : j = ix2 (0 : Fin 1) (0 : Fin 1) := idx11 j
  rw [tileN, dif_pos h]

/-- After point `n` the scratch cell holds `accN n`. -/
theorem scratch_eq (c : Dev nD) : ∀ (n : ℕ) (h : n < cfg0.N) (j : S1x1.Idx), (outsAt0 m c n h).2 j = accN m c n
  | 0, h, j => by
    rw [outsAt0_A m c ⟨0, h⟩ rfl (by show ¬(0 % 4 = 3); decide)]
    dsimp only
    rw [scratch_A, pay4_apply, pay1_apply, tileN_eq m c 0 h j]
    rfl
  | n + 1, h, j => by
    have hN : cfg0.N = 16 := N_0
    by_cases h0 : (n + 1) % 4 = 0
    · have h1 : ¬(n + 1) % 4 = 3 := by omega
      rw [outsAt0_A m c ⟨n + 1, h⟩ h0 h1]
      dsimp only
      rw [scratch_A, pay4_apply, pay1_apply, tileN_eq m c (n + 1) h j, accN_start m c (n + 1) h0]
    · by_cases h1 : (n + 1) % 4 = 3
      · rw [outsAt0_C m c ⟨n + 1, h⟩ h0 h1]
        dsimp only
        rw [scratch_C, pay4_apply, tileN_eq m c (n + 1) h j]
        show (outsAt0 m c n _).2 j + _ = _
        rw [scratch_eq c n _ j, accN_step m c n h0]
      · rw [outsAt0_B m c ⟨n + 1, h⟩ h0 h1]
        dsimp only
        rw [scratch_B, pay4_apply, tileN_eq m c (n + 1) h j]
        show (outsAt0 m c n _).2 j + _ = _
        rw [scratch_eq c n _ j, accN_step m c n h0]

/-- At a last column block the output block is `k0_pay5` of what the scratch cell ends holding. -/
theorem out_of_scratch {F : FTy → Type} [FloatOps F] (c : Dev nD) (i : grid0.Coords) (a2 : Memref sig .tc .vmem S1024x2048 .f32) (h2 : a2.IsWhole) (a3 : Memref sig .tc .vmem S1024x10 .f32) (h3 : a3.IsWhole) (a4 : Memref sig .tc .vmem S10x2048 .f32) (h4 : a4.IsWhole) (a5 : Memref sig .tc .vmem S1x8x128 .f32) (h5 : a5.IsWhole) (a6 : Memref sig .tc .vmem S1x1 .f32) (h6 : a6.IsWhole) (hc0 : ¬cond0_0 i) (hc1 : cond0_1 i)
    (x0 : Vec F S1024x2048 .f32) (x1 : Vec F S1024x10 .f32) (x2 : Vec F S10x2048 .f32) (xs0 : Vec F S1x1 .f32) :
    out0_C_3 c i a2 h2 a3 h3 a4 h4 a5 h5 a6 h6 hc0 hc1 x0 x1 x2 xs0
      = k0_pay5 (sout0_C_0 c i a2 h2 a3 h3 a4 h4 a5 h5 a6 h6 hc0 hc1 x0 x1 x2 xs0) :=
  (out_C c i a2 h2 a3 h3 a4 h4 a5 h5 a6 h6 hc0 hc1 x0 x1 x2 xs0).trans
    (congrArg (fun z => k0_pay5 z) (scratch_C c i a2 h2 a3 h3 a4 h4 a5 h5 a6 h6 hc0 hc1 x0 x1 x2 xs0).symm)

/-- A last column block writes the output block from the scratch cell: `accN n` at (0, 0), zero elsewhere. -/
theorem outblock_eq (c : Dev nD) (n : ℕ) (h : n < cfg0.N) (h3 : n % 4 = 3) (u : Fin 1) (r : Fin 8) (l : Fin 128) :
    (outsAt0 m c n h).1 (ix3 u r l) = if r.val = 0 ∧ l.val = 0 then accN m c n else 0 := by
  have h0 : ¬n % 4 = 0 := by omega
  have e := outsAt0_C m c ⟨n, h⟩ h0 h3
  have e1 : (outsAt0 m c n h).1 = k0_pay5 (outsAt0 m c n h).2 := by
    have e' : outsAt0 m c n h = _ := e
    rw [e']
    dsimp only
    rw [out_of_scratch]
  rw [e1, pay5_apply, scratch_eq m c n h]

end Cert.KernelIdeal.KVal

end
-- ==== Proof.KerBlocks.lean ====
/-
  The three input blocks of a grid point, read where they sit in their arrays.

  The grid is 4 × 4, walked row by row: point `t` is row block `t / 4`, column block `t % 4`. The data window's
  block at `t` is rows `1024 (t / 4) …`, columns `2048 (t % 4) …` of the [4096, 8192] matrix; the feature
  embedding's block is rows `1024 (t / 4) …` of the [4096, 10] array; the transposed sample embedding's block is
  columns `2048 (t % 4) …` of the [10, 8192] array.
-/
import proofs.«134916_j36524401885311_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- Where the four windows' blocks sit at each grid point, decided once over the sixteen points. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 3) = t.val / 4 ∧ win0_3.index t (1 : Fin 3) = 0 ∧ win0_3.index t (2 : Fin 3) = 0 :=
  (by decide +kernel : ∀ t : Fin grid0.N, _)

/-- The data block at point `t`, entry `y`: the matrix at row `1024 (t / 4) + y₀`, column `2048 (t % 4) + y₁`. -/
theorem iblk0_apply (c : Dev nD) (t : Fin cfg0.N) (y : S1024x2048.Idx) (p : Fin 4096) (q : Fin 8192)
    (hp : p.val = 1024 * (t.val / 4) + (y 0).val) (hq : q.val = 2048 * (t.val % 4) + (y 1).val) :
    (iblk m c 0 t : Vec F S1024x2048 .f32) y = V m c main_arg0 (ix2 p q) := by
  unfold iblk
  rw [View.read_apply]
  show V m c main_arg0 (((cfg0.win 0).blk t).view.emb y) = V m c main_arg0 (ix2 p q)
  refine congrArg _ (funext fun a => Fin.ext ?_)
  match a with
  | ⟨0, _⟩ => show win0_0.index t 0 * 1024 + 1 * (y 0).val = p.val; rw [(idx_facts t).1, hp]; omega
  | ⟨1, _⟩ => show win0_0.index t 1 * 2048 + 1 * (y 1).val = q.val; rw [(idx_facts t).2.1, hq]; omega

/-- The feature-embedding block at point `t`, entry `y`: the array at row `1024 (t / 4) + y₀`, column `y₁`. -/
theorem iblk1_apply (c : Dev nD) (t : Fin cfg0.N) (y : S1024x10.Idx) (p : Fin 4096) (k : Fin 10)
    (hp : p.val = 1024 * (t.val / 4) + (y 0).val) (hk : k.val = (y 1).val) :
    (iblk m c 1 t : Vec F S1024x10 .f32) y = V m c main_v8 (ix2 p k) := by
  unfold iblk
  rw [View.read_apply]
  show V m c main_v8 (((cfg0.win 1).blk t).view.emb y) = V m c main_v8 (ix2 p k)
  refine congrArg _ (funext fun a => Fin.ext ?_)
  match a with
  | ⟨0, _⟩ => show win0_1.index t 0 * 1024 + 1 * (y 0).val = p.val; rw [(idx_facts t).2.2.1, hp]; omega
  | ⟨1, _⟩ => show win0_1.index t 1 * 10 + 1 * (y 1).val = k.val; rw [(idx_facts t).2.2.2.1, hk]; omega

/-- The transposed sample-embedding block at point `t`, entry `y`: the array at row `y₀`, column `2048 (t % 4) + y₁`. -/
theorem iblk2_apply (c : Dev nD) (t : Fin cfg0.N) (y : S10x2048.Idx) (k : Fin 10) (q : Fin 8192)
    (hk : k.val = (y 0).val) (hq : q.val = 2048 * (t.val % 4) + (y 1).val) :
    (iblk m c 2 t : Vec F S10x2048 .f32) y = V m c main_v9 (ix2 k q) := by
  unfold iblk
  rw [View.read_apply]
  show V m c main_v9 (((cfg0.win 2).blk t).view.emb y) = V m c main_v9 (ix2 k q)
  refine congrArg _ (funext fun a => Fin.ext ?_)
  match a with
  | ⟨0, _⟩ => show win0_2.index t 0 * 10 + 1 * (y 0).val = k.val; rw [(idx_facts t).2.2.2.2.1, hk]; omega
  | ⟨1, _⟩ => show win0_2.index t 1 * 2048 + 1 * (y 1).val = q.val; rw [(idx_facts t).2.2.2.2.2.1, hq]; omega

end Cert.KernelIdeal.KVal

end
-- ==== Proof.KerArray.lean ====
/-
  The output array after the region: one function of the index.

  Output block `i` (of four) is written once, by the last column block of row block `i` (grid point `4 i + 3`), and
  holds that row block's accumulated sum at position (0, 0) and zero elsewhere. The four blocks tile the [4, 8, 128]
  array, so after the region the array is `outG`: at (i, r, l) the row block's sum if `r = l = 0`, else zero.
-/
import proofs.«134916_j36524401885311_2_alg».proof.Proof.KerPoint
import proofs.«134916_j36524401885311_2_alg».proof.Proof.KerBlocks

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

/-- The output array after the region. -/
def outG (c : Dev nD) : FVec Ideal S4x8x128 .f32 := fun idx =>
  if (idx 1).val = 0 ∧ (idx 2).val = 0 then accN m c (4 * (idx 0).val + 3) else 0

/-- One entry of the block a last column block writes is the array's function there. -/
theorem blk_entry (c : Dev nD) (t : Fin cfg0.N) (h3 : t.val % 4 = 3) (y : S1x8x128.Idx) :
    (outsAt0 m c t.val t.isLt).1 y = outG m c (((cfg0.win 3).blk t).view.emb y) := by
  have hN : t.val < 16 := lt_of_lt_of_eq t.isLt N_0
  obtain ⟨u, r, l, rfl⟩ : ∃ (u : Fin 1) (r : Fin 8) (l : Fin 128), y = ix3 u r l := ⟨y 0, y 1, y 2, eq_ix3 y⟩
  rw [outblock_eq m c t.val t.isLt h3 u r l]
  have e : ((cfg0.win 3).blk t).view.emb (ix3 u r l) = ix3 (⟨t.val / 4, by omega⟩ : Fin 4) r l := by
    funext a; apply Fin.ext
    match a with
    | ⟨0, _⟩ => show win0_3.index t 0 * 1 + 1 * u.val = t.val / 4; rw [(idx_facts t).2.2.2.2.2.2.1]; omega
    | ⟨1, _⟩ => show win0_3.index t 1 * 8 + 1 * r.val = r.val; rw [(idx_facts t).2.2.2.2.2.2.2.1]; omega
    | ⟨2, _⟩ => show win0_3.index t 2 * 128 + 1 * l.val = l.val; rw [(idx_facts t).2.2.2.2.2.2.2.2]; omega
  rw [e]
  show _ = if r.val = 0 ∧ l.val = 0 then accN m c (4 * (t.val / 4) + 3) else 0
  rw [show 4 * (t.val / 4) + 3 = t.val by omega]

/-- What a writing point writes back is its block of `outG`. -/
theorem flushed_eq (c : Dev nD) (t : Fin cfg0.N) (hf : (cfg0.win 3).flush t = true) :
    (dats m 0 c).flushed 3 t = ((cfg0.win 3).blk t).view.read (Elt Ideal) (outG m c) := by
  have h3 : t.val % 4 = 3 := (flush0_3 t).mp hf
  show (cfg0.win 3).cut (grid0.coords t) ((dats m 0 c).after 3 t) = _
  rw [after0_3]
  funext y
  exact blk_entry m c t h3 y

/-- Every index of the array lies in the block of its row block's last column point. -/
theorem covered (i : S4x8x128.Idx) :
    ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 128 := (i 2).isLt
  have hN : cfg0.N = 16 := N_0
  let t : Fin cfg0.N := ⟨4 * (i 0).val + 3, by rw [hN]; omega⟩
  have ht : t.val = 4 * (i 0).val + 3 := rfl
  refine ⟨t, (flush0_3 t).mpr (by rw [ht]; omega), ?_⟩
  show i ∈ ((View.whole main_v10).slice (win0_3.rect t)).set
  rw [View.set_slice_whole, Rect.mem_set_unit]
  intro a
  match a with
  | ⟨0, _⟩ => show win0_3.index t 0 * 1 ≤ (i 0).val ∧ (i 0).val < win0_3.index t 0 * 1 + 1
              rw [(idx_facts t).2.2.2.2.2.2.1, ht]; omega
  | ⟨1, _⟩ => show win0_3.index t 1 * 8 ≤ (i 1).val ∧ (i 1).val < win0_3.index t 1 * 8 + 8
              rw [(idx_facts t).2.2.2.2.2.2.2.1]; omega
  | ⟨2, _⟩ => show win0_3.index t 2 * 128 ≤ (i 2).val ∧ (i 2).val < win0_3.index t 2 * 128 + 128
              rw [(idx_facts t).2.2.2.2.2.2.2.2]; omega

/-- So the output array ends at `outG`. -/
theorem final_out (c : Dev nD) : (dats m 0 c).arrAt 3 cfg0.N = outG m c :=
  (dats m 0 c).arrAt_eq_of_cover 3 (outG m c) (flushed_eq m c) (covered)

end Cert.KernelIdeal.KVal

end
-- ==== Proof.LossSpec.lean ====
/-
  The quantities the loss is made of, as plain sums over coordinates on the extended reals.

  With `X` the [4096, 8192] data matrix, `W` the [4096, 10] feature embedding and `H` the [8192, 10] sample
  embedding, the loss is

      recon / n  +  (1/2) · (tr − ‖H‖²) / n  +  c · (‖H‖² + ‖W‖²) / n ,

  where `recon` is the sum over all (p, q) of the squared residual `X p q − ∑ k, W p k · H q k`, `‖H‖²` and `‖W‖²`
  are the sums of the squared entries, and `tr` is the trace of `Hᵀ · 𝟙 · H` (`𝟙` the all-ones [8192, 8192]
  matrix). That trace is `∑ c, ∑ b, (∑ a, H a c · 1) · H b c`, which for a real-valued `H` is the sum over the
  columns `c` of the squared column sum `(∑ a, H a c)²`: the two forms the two programs compute.
  The last three operations (the divisions by `n`, the two scalings and the two additions) are the same on both
  sides and are kept as one function `lossTail` of the four scalars.
-/
import Idealize.ShloMosaic.PureOps.Ideal
import Idealize.ShloMosaic.Lib.ValueIdx

noncomputable section

open scoped BigOperators

namespace Cert.ReconLoss

open Idealize.ShloMosaic Idealize.ShloMosaic.ValueIdx

/-- The data matrix's shape, the feature embedding's, the sample embedding's, and a scalar's. -/
abbrev SX : Shape := ⟨2, ![4096, 8192]⟩
abbrev SW : Shape := ⟨2, ![4096, 10]⟩
abbrev SH : Shape := ⟨2, ![8192, 10]⟩
abbrev S0 : Shape := ⟨0, ![]⟩

/-- The residual at (p, q): the data entry minus the rank-10 reconstruction `∑ k, W p k · H q k`. -/
def resid (X : SX.Idx → EReal) (W : SW.Idx → EReal) (H : SH.Idx → EReal) (p : Fin 4096) (q : Fin 8192) : EReal :=
  X (ix2 p q) - ∑ k : Fin 10, W (ix2 p k) * H (ix2 q k)

/-- The reconstruction term: the sum of the squared residuals over the whole matrix. -/
def recon (X : SX.Idx → EReal) (W : SW.Idx → EReal) (H : SH.Idx → EReal) : EReal :=
  ∑ p : Fin 4096, ∑ q : Fin 8192, resid X W H p q * resid X W H p q

/-- The sum of the squared entries of the sample embedding, and of the feature embedding. -/
def sumsqH (H : SH.Idx → EReal) : EReal := ∑ a : Fin 8192, ∑ c : Fin 10, H (ix2 a c) * H (ix2 a c)
def sumsqW (W : SW.Idx → EReal) : EReal := ∑ p : Fin 4096, ∑ k : Fin 10, W (ix2 p k) * W (ix2 p k)

/-- The sum of column `c` of the sample embedding, and the sum over the columns of its square. -/
def colsum (H : SH.Idx → EReal) (c : Fin 10) : EReal := ∑ a : Fin 8192, H (ix2 a c)
def sumColsumSq (H : SH.Idx → EReal) : EReal := ∑ c : Fin 10, colsum H c * colsum H c

/-- The trace of `Hᵀ · 𝟙 · H` as the products are taken: first `Hᵀ · 𝟙` (each entry `∑ a, H a c · one`, with
    `one` the ones matrix's entry), then times `H`, then the diagonal summed. -/
def traceOnes (one : EReal) (H : SH.Idx → EReal) : EReal :=
  ∑ c : Fin 10, ∑ b : Fin 8192, (∑ a : Fin 8192, H (ix2 a c) * one) * H (ix2 b c)

/-- The operations both programs end with, on the four scalars `a` (reconstruction), `b` (‖H‖²), `c` (the trace
    term) and `d` (‖W‖²): `a / n + (1/2) · ((c − b) / n) + (κ · (b + d)) / n`, the three constants kept as the
    words the programs carry (8192, 0.5 and the single-precision 0.01). -/
def lossTail (a b c d : FVec Ideal S0 .f32) : FVec Ideal S0 .f32 :=
  addf
    (addf (Host.divf a (constant (F := Ideal) S0 .f32 0x46000000#32))
      (mulf (constant (F := Ideal) S0 .f32 0x3F000000#32)
        (Host.divf (subf c b) (constant (F := Ideal) S0 .f32 0x46000000#32))))
    (Host.divf (mulf (constant (F := Ideal) S0 .f32 0x3C23D70A#32) (addf b d)) (constant (F := Ideal) S0 .f32 0x46000000#32))

end Cert.ReconLoss

end
-- ==== Proof.LossLaws.lean ====
/-
  Algebraic laws behind the two forms of the loss.

  * Regrouping: a sum over a [4096, 8192] matrix equals the sum over its 4 x 4 tiles of 1024 x 2048 entries, each
    tile's rows taken in 4 chunks of 256: a row number is 1024 i + 256 c + r and a column number is 2048 j + l, each
    in exactly one way.
  * Four terms added one after another onto zero are the sum over Fin 4.
  * For a real-valued H the trace of Hᵀ · 𝟙 · H is the sum over the columns of the squared column sum:
    ∑ b, (∑ a, H a c · 1) · H b c = (∑ a, H a c) · (∑ b, H b c).
-/
import proofs.«134916_j36524401885311_2_alg».proof.Proof.LossSpec
import Mathlib.Algebra.BigOperators.Fin
import Mathlib.Logic.Equiv.Fin.Basic

noncomputable section

open scoped BigOperators

namespace Cert.ReconLoss

open Idealize.ShloMosaic Idealize.ShloMosaic.ValueIdx

/-- A sum over `Fin N` with `N = m · n` is a double sum: every number below `N` is `n · a + b` with `a < m`,
    `b < n` in exactly one way. The index `e a b` is any spelling of the number `n · a + b`. -/
theorem sum_fin_split {M : Type*} [AddCommMonoid M] (m n N : ℕ) (h : m * n = N) (f : Fin N → M)
    (e : Fin m → Fin n → Fin N) (he : ∀ a b, (e a b).val = n * a.val + b.val) :
    ∑ p : Fin N, f p = ∑ a : Fin m, ∑ b : Fin n, f (e a b) := by
  subst h
  rw [← (finProdFinEquiv : Fin m × Fin n ≃ Fin (m * n)).sum_comp, Fintype.sum_prod_type]
  refine Finset.sum_congr rfl fun a _ => Finset.sum_congr rfl fun b _ => ?_
  refine congrArg f (Fin.ext ?_)
  rw [he a b, finProdFinEquiv_apply_val, Nat.add_comm]

/-- Rows of the [4096, 8192] matrix: 4 tiles of 1024 rows, each in 4 chunks of 256. -/
theorem sum_rows {M : Type*} [AddCommMonoid M] (F : Fin 4096 → M) :
    ∑ p : Fin 4096, F p
      = ∑ i : Fin 4, ∑ c : Fin 4, ∑ r : Fin 256, F ⟨1024 * i.val + 256 * c.val + r.val, by omega⟩ := by
  rw [sum_fin_split 4 1024 4096 (by norm_num) F (fun i x => ⟨1024 * i.val + x.val, by omega⟩) (fun _ _ => rfl)]
  refine Finset.sum_congr rfl fun i _ => ?_
  refine (sum_fin_split 4 256 1024 (by norm_num) (fun x => F ⟨1024 * i.val + x.val, by omega⟩)
    (fun c r => ⟨256 * c.val + r.val, by omega⟩) (fun _ _ => rfl)).trans ?_
  refine Finset.sum_congr rfl fun c _ => Finset.sum_congr rfl fun r _ => ?_
  exact congrArg F (Fin.ext (Nat.add_assoc _ _ _).symm)

/-- Columns of the [4096, 8192] matrix: 4 tiles of 2048 columns. -/
theorem sum_cols {M : Type*} [AddCommMonoid M] (G : Fin 8192 → M) :
    ∑ q : Fin 8192, G q = ∑ j : Fin 4, ∑ l : Fin 2048, G ⟨2048 * j.val + l.val, by omega⟩ :=
  sum_fin_split 4 2048 8192 (by norm_num) G (fun j l => ⟨2048 * j.val + l.val, by omega⟩) (fun _ _ => rfl)

/-- The sum over the whole matrix, taken tile by tile and, inside a tile, row chunk by row chunk. -/
theorem blocked_sum {M : Type*} [AddCommMonoid M] (g : Fin 4096 → Fin 8192 → M) :
    ∑ i : Fin 4, ∑ j : Fin 4, ∑ c : Fin 4, ∑ r : Fin 256, ∑ l : Fin 2048,
        g ⟨1024 * i.val + 256 * c.val + r.val, by omega⟩ ⟨2048 * j.val + l.val, by omega⟩
      = ∑ p : Fin 4096, ∑ q : Fin 8192, g p q := by
  rw [sum_rows (fun p => ∑ q : Fin 8192, g p q)]
  refine Finset.sum_congr rfl fun i _ => ?_
  refine Finset.sum_comm.trans ?_
  refine Finset.sum_congr rfl fun c _ => ?_
  refine Finset.sum_comm.trans ?_
  refine Finset.sum_congr rfl fun r _ => ?_
  exact (sum_cols (fun q => g ⟨1024 * i.val + 256 * c.val + r.val, by omega⟩ q)).symm

/-- Four terms added one after another onto zero. -/
theorem nested4 {M : Type*} [AddCommMonoid M] (f : Fin 4 → M) :
    (((0 + f 0) + f 1) + f 2) + f 3 = ∑ c : Fin 4, f c := by
  rw [Fin.sum_univ_four, zero_add]

/-- The single-precision word 0x3F800000 denotes the number one. -/
theorem ofBits_one_f32 : Ideal.ofBits .f32 0x3F800000#32 = 1 := by
  simp [Ideal.ofBits, Ideal.ieee, -EReal.coe_mul]; norm_num

/-- The inclusion of the reals in the extended reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a real-valued `H`, the trace of `Hᵀ · 𝟙 · H` is the sum over the columns of the squared column sum: with the
    ones matrix's entry equal to one, `∑ b, (∑ a, H a c) · H b c = (∑ a, H a c) · (∑ b, H b c)`, multiplication
    distributing over a finite sum of real numbers. -/
theorem traceOnes_eq_sumColsumSq (H : SH.Idx → EReal)
    (hH : ∀ (a : Fin 8192) (c : Fin 10), ∃ r : ℝ, H (Idealize.ShloMosaic.ValueIdx.ix2 a c) = (r : EReal)) :
    traceOnes (Idealize.ShloMosaic.Ideal.ofBits .f32 0x3F800000#32) H = sumColsumSq H := by
  choose h hh using hH
  unfold traceOnes sumColsumSq colsum
  rw [ofBits_one_f32]
  refine Finset.sum_congr rfl fun c _ => ?_
  simp only [mul_one, hh]
  rw [← coe_sum]
  simp only [← EReal.coe_mul]
  rw [← coe_sum, Finset.mul_sum]

end Cert.ReconLoss

end
-- ==== Proof.KerTile.lean ====
/-
  A tile's term as a sum of squared residuals of the whole matrices.

  At grid point `n` the data block is rows `1024 (n / 4) …`, columns `2048 (n % 4) …` of the data matrix, and the
  loop walks its rows in four chunks of 256: chunk `k`, row `r`, column `l` of the block is entry
  (1024 (n / 4) + 256 k + r, 2048 (n % 4) + l) of the matrix. The feature-embedding block holds the same rows and the
  transposed sample-embedding block the same columns, so the chunk's squared residual at (r, l) is the squared
  residual of the whole matrices at that entry, and the loop's result — the four chunk terms added in order from
  zero — is the triple sum over chunks, rows and columns.
-/
import proofs.«134916_j36524401885311_2_alg».proof.Proof.KerPoint
import proofs.«134916_j36524401885311_2_alg».proof.Proof.KerBlocks
import proofs.«134916_j36524401885311_2_alg».proof.Proof.LossSpec
import proofs.«134916_j36524401885311_2_alg».proof.Proof.LossLaws

noncomputable section

open scoped BigOperators

namespace Cert.KernelIdeal.KVal

open Cert.KernelIdeal Cert.KernelIdeal.Gen Idealize.ShloMosaic Idealize.ShloMosaic.ValueIdx

variable (m : (ℓ : Loc nD τ sig) → Buf (Elt Ideal) ℓ)

/-- Where the two loads of trip `k` start: row `256 k`, column 0, decided once over the four trips. -/
theorem off_facts : ∀ k : Fin k0_t1_loop.trips,
    k0_off1 k 0 = 256 * k.val ∧ k0_off1 k 1 = 0 ∧ k0_off2 k 0 = 256 * k.val ∧ k0_off2 k 1 = 0 := by
  decide

/-- Chunk `k` of the data block at (r, l): the block at row `256 k + r`, column `l`. -/
theorem chunkX_apply (x0 : Vec Ideal S1024x2048 .f32) (k : Fin 4) (r : Fin 256) (l : Fin 2048) :
    chunkX x0 (trip k) (ix2 r l) = x0 (ix2 (⟨256 * k.val + r.val, by omega⟩ : Fin 1024) l) := by
  show x0 ((Rect.unit (s := S1024x2048) (k0_off1 (trip k)) S256x2048.size (k0_off1_inb (trip k))).idx (ix2 r l)) = _
  refine congrArg x0 (funext fun a => Fin.ext ?_)
  match a with
  | ⟨0, _⟩ =>
    show k0_off1 (trip k) 0 + 1 * r.val = 256 * k.val + r.val
    rw [(off_facts (trip k)).1]
    show 256 * k.val + 1 * r.val = 256 * k.val + r.val
    omega
  | ⟨1, _⟩ =>
    show k0_off1 (trip k) 1 + 1 * l.val = l.val
    rw [(off_facts (trip k)).2.1]; omega

/-- Chunk `k` of the feature-embedding block at (r, j): the block at row `256 k + r`, column `j`. -/
theorem chunkW_apply (x1 : Vec Ideal S1024x10 .f32) (k : Fin 4) (r : Fin 256) (j : Fin 10) :
    chunkW x1 (trip k) (ix2 r j) = x1 (ix2 (⟨256 * k.val + r.val, by omega⟩ : Fin 1024) j) := by
  show x1 ((Rect.unit (s := S1024x10) (k0_off2 (trip k)) S256x10.size (k0_off2_inb (trip k))).idx (ix2 r j)) = _
  refine congrArg x1 (funext fun a => Fin.ext ?_)
  match a with
  | ⟨0, _⟩ =>
    show k0_off2 (trip k) 0 + 1 * r.val = 256 * k.val + r.val
    rw [(off_facts (trip k)).2.2.1]
    show 256 * k.val + 1 * r.val = 256 * k.val + r.val
    omega
  | ⟨1, _⟩ =>
    show k0_off2 (trip k) 1 + 1 * j.val = j.val
    rw [(off_facts (trip k)).2.2.2]; omega

/-- The loop's result on a tile is the sum of the four chunk terms. -/
theorem loopOut_sum (x0 : Vec Ideal S1024x2048 .f32) (x1 : Vec Ideal S1024x10 .f32) (x2 : Vec Ideal S10x2048 .f32)
    (j : S1x1.Idx) :
    loopOut x0 x1 x2 j = ∑ k : Fin 4, chunkTerm x2 (chunkX x0 (trip k)) (chunkW x1 (trip k)) :=
  (loopOut_apply x0 x1 x2 j).trans
    (Cert.ReconLoss.nested4 fun k : Fin 4 => chunkTerm x2 (chunkX x0 (trip k)) (chunkW x1 (trip k)))

/-- A chunk's term over the blocks' own entries: row `256 k + r` of the data and feature-embedding blocks. -/
theorem chunkTerm_eq (x0 : Vec Ideal S1024x2048 .f32) (x1 : Vec Ideal S1024x10 .f32) (x2 : Vec Ideal S10x2048 .f32)
    (k : Fin 4) :
    chunkTerm x2 (chunkX x0 (trip k)) (chunkW x1 (trip k))
      = ∑ r : Fin 256, ∑ l : Fin 2048,
          (x0 (ix2 (⟨256 * k.val + r.val, by omega⟩ : Fin 1024) l)
              - ∑ d : Fin 10, x1 (ix2 (⟨256 * k.val + r.val, by omega⟩ : Fin 1024) d) * x2 (ix2 d l))
            * (x0 (ix2 (⟨256 * k.val + r.val, by omega⟩ : Fin 1024) l)
              - ∑ d : Fin 10, x1 (ix2 (⟨256 * k.val + r.val, by omega⟩ : Fin 1024) d) * x2 (ix2 d l)) := by
  unfold chunkTerm
  refine Finset.sum_congr rfl fun r _ => Finset.sum_congr rfl fun l _ => ?_
  have e : chunkX x0 (trip k) (ix2 r l) - ∑ d : Fin 10, chunkW x1 (trip k) (ix2 r d) * x2 (ix2 d l)
      = x0 (ix2 (⟨256 * k.val + r.val, by omega⟩ : Fin 1024) l)
          - ∑ d : Fin 10, x1 (ix2 (⟨256 * k.val + r.val, by omega⟩ : Fin 1024) d) * x2 (ix2 d l) :=
    congrArg₂ (· - ·) (chunkX_apply x0 k r l)
      (Finset.sum_congr rfl fun d _ => congrArg (· * x2 (ix2 d l)) (chunkW_apply x1 k r d))
  exact congrArg₂ (· * ·) e e

/-- The squared residual at (p, q) of the whole matrices. -/
def sqres (c : Dev nD) (p : Fin 4096) (q : Fin 8192) : EReal :=
  Cert.ReconLoss.resid (V m c main_arg0) (V m c main_v8) (V m c main_v7) p q
    * Cert.ReconLoss.resid (V m c main_arg0) (V m c main_v8) (V m c main_v7) p q

/-- The tile term of point `n`: the squared residuals of the whole matrices summed over the tile, chunk by chunk. -/
theorem tileN_eq_sum (c : Dev nD) (n : ℕ) (h : n < cfg0.N)
    (hT : ∀ (k : Fin 10) (q : Fin 8192), V m c main_v9 (ix2 k q) = V m c main_v7 (ix2 q k)) :
    tileN m c n = ∑ k : Fin 4, ∑ r : Fin 256, ∑ l : Fin 2048,
      sqres m c ⟨1024 * (n / 4) + 256 * k.val + r.val, by have := lt_of_lt_of_eq h N_0; omega⟩
        ⟨2048 * (n % 4) + l.val, by omega⟩ := by
  have hN : n < 16 := lt_of_lt_of_eq h N_0
  rw [tileN, dif_pos h]
  refine (loopOut_sum (iblk m c 0 ⟨n, h⟩) (iblk m c 1 ⟨n, h⟩) (iblk m c 2 ⟨n, h⟩) _).trans ?_
  refine Finset.sum_congr rfl fun k _ => ?_
  refine (chunkTerm_eq (iblk m c 0 ⟨n, h⟩) (iblk m c 1 ⟨n, h⟩) (iblk m c 2 ⟨n, h⟩) k).trans ?_
  refine Finset.sum_congr rfl fun r _ => Finset.sum_congr rfl fun l _ => ?_
  have e0 := iblk0_apply m c ⟨n, h⟩ (ix2 (⟨256 * k.val + r.val, by omega⟩ : Fin 1024) l)
    (⟨1024 * (n / 4) + 256 * k.val + r.val, by omega⟩ : Fin 4096) (⟨2048 * (n % 4) + l.val, by omega⟩ : Fin 8192)
    (Nat.add_assoc _ _ _) rfl
  have e1 : ∀ d : Fin 10, _ := fun d =>
    iblk1_apply m c ⟨n, h⟩ (ix2 (⟨256 * k.val + r.val, by omega⟩ : Fin 1024) d)
      (⟨1024 * (n / 4) + 256 * k.val + r.val, by omega⟩ : Fin 4096) d (Nat.add_assoc _ _ _) rfl
  have e2 : ∀ d : Fin 10, _ := fun d =>
    (iblk2_apply m c ⟨n, h⟩ (ix2 d l) d (⟨2048 * (n % 4) + l.val, by omega⟩ : Fin 8192) rfl rfl).trans (hT d _)
  have er := congrArg₂ (fun a b : EReal => a - b) e0
    (Finset.sum_congr (s₁ := (Finset.univ : Finset (Fin 10))) rfl
      fun d _ => congrArg₂ (fun a b : EReal => a * b) (e1 d) (e2 d))
  unfold sqres Cert.ReconLoss.resid
  exact congrArg₂ (fun a b : EReal => a * b) er er

end Cert.KernelIdeal.KVal

end
-- ==== Proof.KerTail.lean ====
/-
  The host operations after the region, as one function of what the region leaves.

  After the region the program sums the [4, 8, 128] output array, sums the squared sample embedding, the squared
  column sums of the sample embedding and the squared feature embedding, and combines the four scalars by the
  loss's last operations (`Cert.ReconLoss.lossTail`). The output array is what the region's write-backs left; the
  two embeddings are as the host operations before the region computed them.
-/
import proofs.«134916_j36524401885311_2_alg».proof.Proof.Gen.KernelIdeal.Frame
import proofs.«134916_j36524401885311_2_alg».proof.Proof.LossSpec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.StableHlo

variable (m : (ℓ : Loc nD τ sig) → Buf (Elt Ideal) ℓ)

/-- The sample embedding [8192, 10] and the feature embedding [4096, 10] as the region finds them. -/
abbrev hembK (c : Dev nD) : FVec Ideal S8192x10 .f32 := V m c main_v7
abbrev wembK (c : Dev nD) : FVec Ideal S4096x10 .f32 := V m c main_v8

/-- The four scalars the tail combines: the output array's total, ‖H‖², the sum of the squared column sums of H, ‖W‖². -/
def sumOut (out : FVec Ideal S4x8x128 .f32) : FVec Ideal S_ .f32 :=
  Host.reduceAdd out (constant (F := Ideal) S_ .f32 0x00000000#32) reducesTo_S4x8x128_S_d0_1_2 h_S_
def sumsqHK (H : FVec Ideal S8192x10 .f32) : FVec Ideal S_ .f32 :=
  Host.reduceAdd (mulf H H) (constant (F := Ideal) S_ .f32 0x00000000#32) reducesTo_S8192x10_S_d0_1 h_S_
def colsumSqK (H : FVec Ideal S8192x10 .f32) : FVec Ideal S_ .f32 :=
  Host.reduceAdd
    (mulf (Host.reduceAdd H (constant (F := Ideal) S_ .f32 0x00000000#32) reducesTo_S8192x10_S10_d0 h_S_)
      (Host.reduceAdd H (constant (F := Ideal) S_ .f32 0x00000000#32) reducesTo_S8192x10_S10_d0 h_S_))
    (constant (F := Ideal) S_ .f32 0x00000000#32) reducesTo_S10_S_d0 h_S_
def sumsqWK (W : FVec Ideal S4096x10 .f32) : FVec Ideal S_ .f32 :=
  Host.reduceAdd (mulf W W) (constant (F := Ideal) S_ .f32 0x00000000#32) reducesTo_S4096x10_S_d0_1 h_S_

set_option maxHeartbeats 2000000 in
/-- The program's result: the loss's last operations on those four scalars. -/
theorem tail_eq (c : Dev nD) :
    Pipeline.afterTail₀ cfgs (dats m) 0 (V0 m) [hostOps1] c main_v27
      = Cert.ReconLoss.lossTail (sumOut ((dats m 0 c).arrAt 3 cfg0.N)) (sumsqHK (hembK m c)) (colsumSqK (hembK m c)) (sumsqWK (wembK m c)) := by
  have e3 : Pipeline.withArrays (cfgs 0).spec c (V0 m c) (fun w => (dats m 0 c).arrAt w (cfgs 0).N) (Proc.devRef .tc main_v10)
      = (dats m 0 c).arrAt 3 cfg0.N := Pipeline.withArrays_arr spec0 launch0.win.arr_inj c _ _ 3
  have e1 : Pipeline.withArrays (cfgs 0).spec c (V0 m c) (fun w => (dats m 0 c).arrAt w (cfgs 0).N) (Proc.devRef .tc main_v8)
      = wembK m c :=
    (Pipeline.withArrays_arr spec0 launch0.win.arr_inj c _ _ 1).trans (((dats m 0 c).arrAt_in 1 rfl _).trans (A_eq m c 1))
  have e7 : Pipeline.withArrays (cfgs 0).spec c (V0 m c) (fun w => (dats m 0 c).arrAt w (cfgs 0).N) (Proc.devRef .tc main_v7)
      = hembK m c :=
    Pipeline.withArrays_of_ne _ c (V0 m c) _ main_v7 (by exact (by decide : ∀ w, Pipeline.arrRef spec0 w ≠ main_v7))
  unfold Pipeline.afterTail₀
  show StableHlo.after hostOps1 _ (Proc.devRef .tc main_v27) = _
  after_results_simp
  rw [e3, e1, e7]
  rfl

end Cert.KernelIdeal.KVal

end
-- ==== Proof.KerScalars.lean ====
/-
  The four scalars the program's last operations combine, as plain sums.

  The host's sum of a whole array into a scalar, started from zero, is the sum over every index; over a matrix it is
  the double sum over rows and columns, over a rank-three array the triple sum. The sum down the columns of the
  [8192, 10] sample embedding is, at column c, the column sum; squared and summed over the columns it is the sum of
  the squared column sums. A value in corner (0, 0) of an otherwise zero 8 x 128 tile sums to that value.
-/
import proofs.«134916_j36524401885311_2_alg».proof.Proof.KerTail
import proofs.«134916_j36524401885311_2_alg».proof.Proof.LossSpec
import proofs.«134916_j36524401885311_2_alg».proof.Proof.LossLaws
import Idealize.ShloMosaic.PureOps.Ideal.Laws
import Idealize.ShloMosaic.Lib.ValueIdx

noncomputable section

open scoped BigOperators

namespace Cert.KernelIdeal.KVal

open Cert.KernelIdeal Cert.KernelIdeal.Gen Idealize.ShloMosaic Idealize.ShloMosaic.ValueIdx

/-- A rank-1 index set is its one coordinate range, so a sum over it is the sum over the coordinate. -/
def idxEquiv1 {n : ℕ} : (⟨1, ![n]⟩ : Shape).Idx ≃ Fin n where
  toFun i := i 0
  invFun a := ix1 a
  left_inv i := (eq_ix1 i).symm
  right_inv _ := rfl
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum of a whole array into a scalar, started from the zero word: the sum over every index. -/
theorem hostSum_total {s : Shape} {axes : List (Fin s.rank)} (X : FVec Ideal s .f32)
    (h' : s.ReducesTo axes (⟨0, ![]⟩ : Shape)) (hu : 0 < (⟨0, ![]⟩ : Shape).numel) (j : (⟨0, ![]⟩ : Shape).Idx) :
    Host.reduceAdd X (constant (F := Ideal) (⟨0, ![]⟩ : Shape) .f32 0x00000000#32) h' hu j = ∑ i : s.Idx, X i := by
  refine (Ideal.hostReduceAdd_total h' (fun b => b.elim0) X _ j).trans ?_
  show Ideal.ofBits .f32 0x00000000#32 + _ = _
  rw [Ideal.ofBits_zero_f32, zero_add]

/-- Column `c` of a matrix with the row coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- The host's sum down the columns of a matrix, started from the zero word: at column `c`, the sum of the column. -/
theorem hostColSum_apply {a b : ℕ} (X : FVec Ideal ⟨2, ![a, b]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel) (c : Fin b) :
    Host.reduceAdd X (constant (F := Ideal) (⟨0, ![]⟩ : Shape) .f32 0x00000000#32) h' hu (ix1 c)
      = ∑ r : Fin a, X (ix2 r c) := by
  refine (Ideal.hostReduceAdd_single h' h X _ (ix1 c)).trans ?_
  show Ideal.ofBits .f32 0x00000000#32 + _ = _
  rw [Ideal.ofBits_zero_f32, zero_add]
  exact Finset.sum_congr rfl fun k _ => congrArg X (lift_axis0 h c k)

/-- A value placed in corner (0, 0) of an 8 x 128 tile of zeros sums to that value. -/
theorem sum_corner {M : Type*} [AddCommMonoid M] (a : M) :
    ∑ r : Fin 8, ∑ l : Fin 128, (if r.val = 0 ∧ l.val = 0 then a else 0) = a := by
  rw [Finset.sum_eq_single (0 : Fin 8)]
  · rw [Finset.sum_eq_single (0 : Fin 128)]
    · exact if_pos ⟨rfl, rfl⟩
    · intro l _ hl
      exact if_neg fun h => hl (Fin.ext h.2)
    · intro h; exact absurd (Finset.mem_univ _) h
  · intro r _ hr
    exact Finset.sum_eq_zero fun l _ => if_neg fun h => hr (Fin.ext h.1)
  · intro h; exact absurd (Finset.mem_univ _) h

/-- The program's sum of the squared sample embedding is ‖H‖². -/
theorem sumsqHK_apply (H : FVec Ideal S8192x10 .f32) (j : S_.Idx) : sumsqHK H j = Cert.ReconLoss.sumsqH H := by
  unfold sumsqHK
  refine (hostSum_total _ _ _ j).trans ?_
  rw [sum_idx2]
  unfold Cert.ReconLoss.sumsqH
  exact Finset.sum_congr rfl fun a _ => Finset.sum_congr rfl fun c _ => rfl

/-- The program's sum of the squared feature embedding is ‖W‖². -/
theorem sumsqWK_apply (W : FVec Ideal S4096x10 .f32) (j : S_.Idx) : sumsqWK W j = Cert.ReconLoss.sumsqW W := by
  unfold sumsqWK
  refine (hostSum_total _ _ _ j).trans ?_
  rw [sum_idx2]
  unfold Cert.ReconLoss.sumsqW
  exact Finset.sum_congr rfl fun p _ => Finset.sum_congr rfl fun k _ => rfl

/-- The program's sum of the squared column sums of the sample embedding. -/
theorem colsumSqK_apply (H : FVec Ideal S8192x10 .f32) (j : S_.Idx) :
    colsumSqK H j = Cert.ReconLoss.sumColsumSq H := by
  unfold colsumSqK
  refine (hostSum_total _ _ _ j).trans ?_
  rw [sum_idx1]
  unfold Cert.ReconLoss.sumColsumSq Cert.ReconLoss.colsum
  refine Finset.sum_congr rfl fun c _ => ?_
  have hc := hostColSum_apply H reducesTo_S8192x10_S10_d0 (by decide) h_S_ c
  exact congrArg₂ (· * ·) hc hc

/-- The program's sum of the [4, 8, 128] output array. -/
theorem sumOut_apply (out : FVec Ideal S4x8x128 .f32) (j : S_.Idx) :
    sumOut out j = ∑ i : Fin 4, ∑ r : Fin 8, ∑ l : Fin 128, out (ix3 i r l) := by
  unfold sumOut
  refine (hostSum_total _ _ _ j).trans ?_
  exact sum_idx3 out

end Cert.KernelIdeal.KVal

end
-- ==== Proof.RefRun.lean ====
/-
  The reference program's run, read back.

  The reference's @main is a straight line of host operations in which three module-local functions are called:
  the clamp of the sample table to [0, 1], the trace of a [10, 10] matrix (the diagonal selected by comparing the
  row and column numbers, then summed), and inside it the selection. Each call executes the callee's body on the
  operands, so @main is the list `ops` below: the callee's operations stand in the call's place, over that call's
  own buffers. Running a list of host operations from a memory with zero counters terminates with every buffer at
  the operations' fold over the launch contents; read at the result buffer that fold is `refOut` of the four
  argument arrays, and at an argument buffer it is what was there.

  `refOut` is stated through the two embeddings every term of the loss is made of — `wemd`, the transposed
  feature matrix, and `hemb`, the rows of the clamped sample table at the wrapped sample numbers — and through
  the four scalars the last operations combine: the summed squared residual, the two sums of squares and the
  trace of `Hᵀ · 𝟙 · H`.
-/
import proofs.«134916_j36524401885311_2_alg».proof.Proof.Gen.ReferenceIdeal
import proofs.«134916_j36524401885311_2_alg».proof.Proof.LossSpec
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's sixty operations, in order, the calls unfolded: the two bounds, the clamp's six (each bound converted
    to its own type and broadcast, the maximum with the lower and the minimum with the upper one), @main's
    twenty-six up to the [10, 10] product, the trace's eleven (the two coordinate tables, the zero offset and its
    sum with the row numbers, the comparison, the zero matrix, the selection, the sum), and the fifteen that
    combine the four scalars. -/
abbrev ops : List (HloOp τ sig (Elt F)) :=
  [ nullary main_cst (constant S_ .f32 0x00000000#32),
    nullary main_cst_0 (constant S_ .f32 0x3F800000#32),
    TRef.unary (TRef.of (T := ⟨S_, .f32⟩) main_cst) main_call0.v0 id,
    TRef.unary main_call0.v0 main_call0.v1 (broadcastInDim S100000x10 ![] bcast_S_S100000x10),
    TRef.binary main_call0.v1 (TRef.of (T := ⟨S100000x10, .f32⟩) main_arg3) main_call0.v2 maximumf,
    TRef.unary (TRef.of (T := ⟨S_, .f32⟩) main_cst_0) main_call0.v3 id,
    TRef.unary main_call0.v3 main_call0.v4 (broadcastInDim S100000x10 ![] bcast_S_S100000x10),
    TRef.binary main_call0.v4 main_call0.v2 main_call0.v5 minimumf,
    nullary main_c (constantI S_ 32 0#32),
    unary main_c main_v1 (broadcastInDim S8192 ![] bcast_S_S8192 : (⟨S_, .i32⟩ : BufTy).Contents (Elt F) → (⟨S8192, .i32⟩ : BufTy).Contents (Elt F)),
    binary main_arg1 main_v1 main_v2 (cmpi .slt : (⟨S8192, .i32⟩ : BufTy).Contents (Elt F) → (⟨S8192, .i32⟩ : BufTy).Contents (Elt F) → (⟨S8192, .i1⟩ : BufTy).Contents (Elt F)),
    nullary main_c_1 (constantI S_ 32 100000#32),
    unary main_c_1 main_v3 (broadcastInDim S8192 ![] bcast_S_S8192 : (⟨S_, .i32⟩ : BufTy).Contents (Elt F) → (⟨S8192, .i32⟩ : BufTy).Contents (Elt F)),
    binary main_arg1 main_v3 main_v4 (addi : (⟨S8192, .i32⟩ : BufTy).Contents (Elt F) → (⟨S8192, .i32⟩ : BufTy).Contents (Elt F) → (⟨S8192, .i32⟩ : BufTy).Contents (Elt F)),
    ternary main_v2 main_v4 main_arg1 main_v5 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v5 main_v6 (broadcastInDim S8192x1 ![0] bcast_S8192_S8192x1_0 : (⟨S8192, .i32⟩ : BufTy).Contents (Elt F) → (⟨S8192x1, .i32⟩ : BufTy).Contents (Elt F)),
    binary main_v0 main_v6 main_v7 ((fun x i => Host.gather gather_S100000x10_S8192x1_S8192x10_1_0_n_n_0_1_110 x i) : (⟨S100000x10, .f32⟩ : BufTy).Contents (Elt F) → (⟨S8192x1, .i32⟩ : BufTy).Contents (Elt F) → (⟨S8192x10, .f32⟩ : BufTy).Contents (Elt F)),
    unary main_arg2 main_v8 ((transpose S4096x10 [1, 0] · transposes_S10x4096_S4096x10_1_0) : (⟨S10x4096, .f32⟩ : BufTy).Contents (Elt F) → (⟨S4096x10, .f32⟩ : BufTy).Contents (Elt F)),
    unary main_v7 main_v9 ((transpose S10x8192 [1, 0] · transposes_S8192x10_S10x8192_1_0) : (⟨S8192x10, .f32⟩ : BufTy).Contents (Elt F) → (⟨S10x8192, .f32⟩ : BufTy).Contents (Elt F)),
    binary main_v8 main_v9 main_v10 ((fun l r => Host.dotGeneral dot_S4096x10_S10x8192_S4096x8192_1_0_0_1_n_n none l r) : (⟨S4096x10, .f32⟩ : BufTy).Contents (Elt F) → (⟨S10x8192, .f32⟩ : BufTy).Contents (Elt F) → (⟨S4096x8192, .f32⟩ : BufTy).Contents (Elt F)),
    binary main_arg0 main_v10 main_v11 (subf : (⟨S4096x8192, .f32⟩ : BufTy).Contents (Elt F) → (⟨S4096x8192, .f32⟩ : BufTy).Contents (Elt F) → (⟨S4096x8192, .f32⟩ : BufTy).Contents (Elt F)),
    binary main_v11 main_v11 main_v12 (mulf : (⟨S4096x8192, .f32⟩ : BufTy).Contents (Elt F) → (⟨S4096x8192, .f32⟩ : BufTy).Contents (Elt F) → (⟨S4096x8192, .f32⟩ : BufTy).Contents (Elt F)),
    nullary main_cst_2 (constant S_ .f32 0x00000000#32),
    binary main_v12 main_cst_2 main_v13 ((fun x v => Host.reduceAdd x v reducesTo_S4096x8192_S_d0_1 h_S_) : (⟨S4096x8192, .f32⟩ : BufTy).Contents (Elt F) → (⟨S_, .f32⟩ : BufTy).Contents (Elt F) → (⟨S_, .f32⟩ : BufTy).Contents (Elt F)),
    nullary main_cst_3 (constant S_ .f32 0x46000000#32),
    binary main_v13 main_cst_3 main_v14 (Host.divf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    unary main_cst_4 main_v15 (broadcastInDim S8192x8192 ![] bcast_S_S8192x8192 : (⟨S_, .f32⟩ : BufTy).Contents (Elt F) → (⟨S8192x8192, .f32⟩ : BufTy).Contents (Elt F)),
    binary main_v7 main_v7 main_v16 (mulf : (⟨S8192x10, .f32⟩ : BufTy).Contents (Elt F) → (⟨S8192x10, .f32⟩ : BufTy).Contents (Elt F) → (⟨S8192x10, .f32⟩ : BufTy).Contents (Elt F)),
    nullary main_cst_5 (constant S_ .f32 0x00000000#32),
    binary main_v16 main_cst_5 main_v17 ((fun x v => Host.reduceAdd x v reducesTo_S8192x10_S_d0_1 h_S_) : (⟨S8192x10, .f32⟩ : BufTy).Contents (Elt F) → (⟨S_, .f32⟩ : BufTy).Contents (Elt F) → (⟨S_, .f32⟩ : BufTy).Contents (Elt F)),
    unary main_v7 main_v18 ((transpose S10x8192 [1, 0] · transposes_S8192x10_S10x8192_1_0) : (⟨S8192x10, .f32⟩ : BufTy).Contents (Elt F) → (⟨S10x8192, .f32⟩ : BufTy).Contents (Elt F)),
    binary main_v18 main_v15 main_v19 ((fun l r => Host.dotGeneral dot_S10x8192_S8192x8192_S10x8192_1_0_0_1_n_n none l r) : (⟨S10x8192, .f32⟩ : BufTy).Contents (Elt F) → (⟨S8192x8192, .f32⟩ : BufTy).Contents (Elt F) → (⟨S10x8192, .f32⟩ : BufTy).Contents (Elt F)),
    binary main_v19 main_v7 main_v20 ((fun l r => Host.dotGeneral dot_S10x8192_S8192x10_S10x10_1_0_0_1_n_n none l r) : (⟨S10x8192, .f32⟩ : BufTy).Contents (Elt F) → (⟨S8192x10, .f32⟩ : BufTy).Contents (Elt F) → (⟨S10x10, .f32⟩ : BufTy).Contents (Elt F)),
    TRef.nullary main_call1.v0 (iotaInDim S10x10 32 0),
    TRef.nullary main_call1.v1 (iotaInDim S10x10 32 1),
    TRef.nullary main_call1.c (constantI S_ 32 0#32),
    TRef.unary main_call1.c main_call1.v2 (broadcastInDim S10x10 ![] bcast_S_S10x10),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S10x10 ![] bcast_S_S10x10),
    TRef.ternary main_call1.v4 (TRef.of (T := ⟨S10x10, .f32⟩) main_v20) main_call1.v5 main_call1.call0.v0 select,
    TRef.nullary main_call1.cst_0 (constant S_ .f32 0x00000000#32),
    TRef.binary main_call1.call0.v0 main_call1.cst_0 main_call1.v7 (fun x v => Host.reduceAdd x v reducesTo_S10x10_S_d0_1 h_S_),
    binary main_v21 main_v17 main_v22 (subf : (⟨S_, .f32⟩ : BufTy).Contents (Elt F) → (⟨S_, .f32⟩ : BufTy).Contents (Elt F) → (⟨S_, .f32⟩ : BufTy).Contents (Elt F)),
    nullary main_cst_6 (constant S_ .f32 0x46000000#32),
    binary main_v22 main_cst_6 main_v23 (Host.divf : (⟨S_, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v23 main_v24 (mulf : (⟨S_, .f32⟩ : BufTy).Contents (Elt F) → (⟨S_, .f32⟩ : BufTy).Contents (Elt F) → (⟨S_, .f32⟩ : BufTy).Contents (Elt F)),
    binary main_v14 main_v24 main_v25 (addf : (⟨S_, .f32⟩ : BufTy).Contents (Elt F) → (⟨S_, .f32⟩ : BufTy).Contents (Elt F) → (⟨S_, .f32⟩ : BufTy).Contents (Elt F)),
    binary main_v8 main_v8 main_v26 (mulf : (⟨S4096x10, .f32⟩ : BufTy).Contents (Elt F) → (⟨S4096x10, .f32⟩ : BufTy).Contents (Elt F) → (⟨S4096x10, .f32⟩ : BufTy).Contents (Elt F)),
    nullary main_cst_8 (constant S_ .f32 0x00000000#32),
    binary main_v26 main_cst_8 main_v27 ((fun x v => Host.reduceAdd x v reducesTo_S4096x10_S_d0_1 h_S_) : (⟨S4096x10, .f32⟩ : BufTy).Contents (Elt F) → (⟨S_, .f32⟩ : BufTy).Contents (Elt F) → (⟨S_, .f32⟩ : BufTy).Contents (Elt F)),
    binary main_v17 main_v27 main_v28 (addf : (⟨S_, .f32⟩ : BufTy).Contents (Elt F) → (⟨S_, .f32⟩ : BufTy).Contents (Elt F) → (⟨S_, .f32⟩ : BufTy).Contents (Elt F)),
    nullary main_cst_9 (constant S_ .f32 0x3C23D70A#32),
    binary main_cst_9 main_v28 main_v29 (mulf : (⟨S_, .f32⟩ : BufTy).Contents (Elt F) → (⟨S_, .f32⟩ : BufTy).Contents (Elt F) → (⟨S_, .f32⟩ : BufTy).Contents (Elt F)),
    nullary main_cst_10 (constant S_ .f32 0x46000000#32),
    binary main_v29 main_cst_10 main_v30 (Host.divf : (⟨S_, .f32⟩ : BufTy).Contents (Elt F) → (⟨S_, .f32⟩ : BufTy).Contents (Elt F) → (⟨S_, .f32⟩ : BufTy).Contents (Elt F)),
    binary main_v25 main_v30 main_v31 (addf : (⟨S_, .f32⟩ : BufTy).Contents (Elt F) → (⟨S_, .f32⟩ : BufTy).Contents (Elt F) → (⟨S_, .f32⟩ : BufTy).Contents (Elt F)) ]

-- sixty binds re-associated: the rewriting under the chain recurses once per statement
set_option maxRecDepth 8192 in
/-- @main is that straight line: the three functions' definitions unfolded at their calls and the records at
    their fields, both sides are one chain of host steps once sequencing is reassociated. -/
theorem main_eq (c : Dev nD) : main (F := F) c = seq ops := by
  simp only [main, fn_clip.body, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    binary_bufs_sub .., binary_bufs_sub .., nullary_bufs_sub .., binary_bufs_sub .., nullary_bufs_sub .., binary_bufs_sub ..,
    nullary_bufs_sub .., unary_bufs_sub .., binary_bufs_sub .., nullary_bufs_sub .., binary_bufs_sub .., unary_bufs_sub ..,
    binary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    binary_bufs_sub .., nullary_bufs_sub .., binary_bufs_sub .., nullary_bufs_sub .., binary_bufs_sub .., binary_bufs_sub ..,
    binary_bufs_sub .., nullary_bufs_sub .., binary_bufs_sub .., binary_bufs_sub .., nullary_bufs_sub .., binary_bufs_sub ..,
    nullary_bufs_sub .., binary_bufs_sub .., binary_bufs_sub ..⟩

/-! ## The composed term -/

/-- The feature embedding [4096, 10]: the [10, 4096] argument transposed. -/
def wemd (Wt : FVec Ideal S10x4096 .f32) : FVec Ideal S4096x10 .f32 :=
  transpose S4096x10 [1, 0] Wt transposes_S10x4096_S4096x10_1_0

/-- The sample embedding [8192, 10]: the sample table clamped to [0, 1] (the maximum with the lower bound, then
    the minimum with the upper one), its rows gathered at the sample numbers, a negative number first wrapped by
    the table's length. -/
def hemb (ids : IVec S8192 32) (Hw : FVec Ideal S100000x10 .f32) : FVec Ideal S8192x10 .f32 :=
  Host.gather gather_S100000x10_S8192x1_S8192x10_1_0_n_n_0_1_110
    (minimumf (broadcastInDim S100000x10 ![] bcast_S_S100000x10 (constant (F := Ideal) S_ .f32 0x3F800000#32))
      (maximumf (broadcastInDim S100000x10 ![] bcast_S_S100000x10 (constant (F := Ideal) S_ .f32 0x00000000#32)) Hw))
    (broadcastInDim S8192x1 ![0] bcast_S8192_S8192x1_0
      (select (cmpi .slt ids (broadcastInDim S8192 ![] bcast_S_S8192 (constantI S_ 32 0#32)))
        (addi ids (broadcastInDim S8192 ![] bcast_S_S8192 (constantI S_ 32 100000#32))) ids))

/-- The residual matrix [4096, 8192]: the data minus the product of the feature embedding with the transposed
    sample embedding. -/
def residV (X : FVec Ideal S4096x8192 .f32) (W : FVec Ideal S4096x10 .f32) (H : FVec Ideal S8192x10 .f32) :
    FVec Ideal S4096x8192 .f32 :=
  subf X (Host.dotGeneral dot_S4096x10_S10x8192_S4096x8192_1_0_0_1_n_n none W
    (transpose S10x8192 [1, 0] H transposes_S8192x10_S10x8192_1_0))

/-- The reconstruction scalar: the squared residuals summed over both axes. -/
def reconV (X : FVec Ideal S4096x8192 .f32) (W : FVec Ideal S4096x10 .f32) (H : FVec Ideal S8192x10 .f32) :
    FVec Ideal S_ .f32 :=
  Host.reduceAdd (mulf (residV X W H) (residV X W H)) (constant (F := Ideal) S_ .f32 0x00000000#32)
    reducesTo_S4096x8192_S_d0_1 h_S_

/-- The squared entries of the sample embedding, and of the feature embedding, summed over both axes. -/
def sumsqHV (H : FVec Ideal S8192x10 .f32) : FVec Ideal S_ .f32 :=
  Host.reduceAdd (mulf H H) (constant (F := Ideal) S_ .f32 0x00000000#32) reducesTo_S8192x10_S_d0_1 h_S_
def sumsqWV (W : FVec Ideal S4096x10 .f32) : FVec Ideal S_ .f32 :=
  Host.reduceAdd (mulf W W) (constant (F := Ideal) S_ .f32 0x00000000#32) reducesTo_S4096x10_S_d0_1 h_S_

/-- The [10, 10] matrix `Hᵀ · 𝟙 · H`: the transposed sample embedding times the all-ones [8192, 8192] matrix, times
    the sample embedding. -/
def gramV (H : FVec Ideal S8192x10 .f32) : FVec Ideal S10x10 .f32 :=
  Host.dotGeneral dot_S10x8192_S8192x10_S10x10_1_0_0_1_n_n none
    (Host.dotGeneral dot_S10x8192_S8192x8192_S10x8192_1_0_0_1_n_n none
      (transpose S10x8192 [1, 0] H transposes_S8192x10_S10x8192_1_0)
      (broadcastInDim S8192x8192 ![] bcast_S_S8192x8192 (constant (F := Ideal) S_ .f32 0x3F800000#32)))
    H

/-- The trace of a [10, 10] matrix as the reference takes it: where the row number (plus the zero offset) equals
    the column number the entry, elsewhere zero, summed over both axes. -/
def traceV (M : FVec Ideal S10x10 .f32) : FVec Ideal S_ .f32 :=
  Host.reduceAdd
    (select
      (cmpi .eq (addi (iotaInDim S10x10 32 0) (broadcastInDim S10x10 ![] bcast_S_S10x10 (constantI S_ 32 0#32)))
        (iotaInDim S10x10 32 1))
      M (broadcastInDim S10x10 ![] bcast_S_S10x10 (constant (F := Ideal) S_ .f32 0x00000000#32)))
    (constant (F := Ideal) S_ .f32 0x00000000#32) reducesTo_S10x10_S_d0_1 h_S_

/-- The reference's result of its four arguments: the last operations applied to the four scalars. -/
def refOut (X : FVec Ideal S4096x8192 .f32) (ids : IVec S8192 32) (Wt : FVec Ideal S10x4096 .f32)
    (Hw : FVec Ideal S100000x10 .f32) : FVec Ideal S_ .f32 :=
  Cert.ReconLoss.lossTail (reconV X (wemd Wt) (hemb ids Hw)) (sumsqHV (hemb ids Hw)) (traceV (gramV (hemb ids Hw)))
    (sumsqWV (wemd Wt))

/-! ## The run -/

set_option maxRecDepth 16384 in
set_option maxHeartbeats 4000000 in
/-- On every device, from any memory with zero counters: every weakly fair execution of @main terminates with the
    result buffer at `refOut` of the four argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.KerHost.lean ====
/-
  The two embeddings as the region finds them.

  Before the region the host clamps the sample table to [0, 1], gathers its rows at the (wrapped) sample numbers
  into the sample embedding [8192, 10], transposes the feature matrix into the feature embedding [4096, 10], and
  transposes the sample embedding into the [10, 8192] array the region's third window reads. These are the same
  operations, on the same arguments, as the reference's.
-/
import proofs.«134916_j36524401885311_2_alg».proof.Proof.Gen.KernelIdeal.Frame
import proofs.«134916_j36524401885311_2_alg».proof.Proof.RefRun
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Idealize.ShloMosaic.StableHlo

variable (m : (ℓ : Loc nD τ sig) → Buf (Elt Ideal) ℓ)

set_option maxHeartbeats 2000000 in
/-- The feature embedding the region finds is the transposed feature matrix. -/
theorem V8_eq (c : Dev nD) :
    (V m c main_v8 : FVec Ideal S4096x10 .f32) = Cert.ReferenceIdeal.RefValue.wemd (m ((c : Thread nD τ).loc main_arg2)) := by
  dsimp only [Gen.V, Gen.V0]
  simp only [hostOps0, hostOps0_1, hostOps0_2, List.flatten_cons, List.flatten_nil, List.append_nil, List.cons_append,
    List.nil_append]
  after_results_simp
  rfl

set_option maxHeartbeats 2000000 in
/-- The sample embedding the region finds is the clamped table's rows at the wrapped sample numbers. -/
theorem V7_eq (c : Dev nD) :
    (V m c main_v7 : FVec Ideal S8192x10 .f32)
      = Cert.ReferenceIdeal.RefValue.hemb (m ((c : Thread nD τ).loc main_arg1)) (m ((c : Thread nD τ).loc main_arg3)) := by
  dsimp only [Gen.V, Gen.V0]
  simp only [hostOps0, hostOps0_1, hostOps0_2, List.flatten_cons, List.flatten_nil, List.append_nil, List.cons_append,
    List.nil_append]
  after_results_simp
  rfl

set_option maxHeartbeats 2000000 in
/-- The [10, 8192] array of the third window is the sample embedding transposed. -/
theorem V9_eq (c : Dev nD) :
    (V m c main_v9 : FVec Ideal S10x8192 .f32)
      = transpose S10x8192 [1, 0] (V m c main_v7 : FVec Ideal S8192x10 .f32) transposes_S8192x10_S10x8192_1_0 := by
  dsimp only [Gen.V, Gen.V0]
  simp only [hostOps0, hostOps0_1, hostOps0_2, List.flatten_cons, List.flatten_nil, List.append_nil, List.cons_append,
    List.nil_append]
  after_results_simp

/-- Entry (k, q) of that array is entry (q, k) of the sample embedding. -/
theorem V9_apply (c : Dev nD) (k : Fin 10) (q : Fin 8192) : V m c main_v9 (ix2 k q) = V m c main_v7 (ix2 q k) := by
  rw [V9_eq]
  exact transpose_ix2_apply _ _ k q

end Cert.KernelIdeal.KVal

end
-- ==== Proof.GridSum.lean ====
/-
  The grid's total. The 4 x 4 grid of tiles is walked row block by row block; within row block i the four column
  tiles are added one after another onto zero. Tile number n = 4 i + j has row block n / 4 = i and column block
  n % 4 = j, so the row blocks' totals summed over i are the sum over all sixteen tiles, which is the sum over the
  whole [4096, 8192] matrix.
-/
import proofs.«134916_j36524401885311_2_alg».proof.Proof.LossLaws

noncomputable section

open scoped BigOperators

namespace Cert.ReconLoss

/-- Row block `i`'s four column tiles added in order from zero, summed over the four row blocks, is the whole double
    sum, when tile `n` holds the sum over its 1024 x 2048 entries taken in 4 chunks of 256 rows. -/
theorem grid_total {M : Type*} [AddCommMonoid M] (tile : ℕ → M) (sq : Fin 4096 → Fin 8192 → M)
    (htile : ∀ (n : ℕ) (hn : n < 16), tile n = ∑ k : Fin 4, ∑ r : Fin 256, ∑ l : Fin 2048,
      sq ⟨1024 * (n / 4) + 256 * k.val + r.val, by omega⟩ ⟨2048 * (n % 4) + l.val, by omega⟩) :
    ∑ i : Fin 4, ((((0 + tile (4 * i.val)) + tile (4 * i.val + 1)) + tile (4 * i.val + 2)) + tile (4 * i.val + 3))
      = ∑ p : Fin 4096, ∑ q : Fin 8192, sq p q := by
  rw [← blocked_sum sq]
  refine Finset.sum_congr rfl fun i _ => ?_
  refine Eq.trans (b := ∑ j : Fin 4, tile (4 * i.val + j.val)) ?_ ?_
  · exact nested4 (fun j : Fin 4 => tile (4 * i.val + j.val))
  · refine Finset.sum_congr rfl fun j _ => ?_
    rw [htile (4 * i.val + j.val) (by omega)]
    have h1 : (4 * i.val + j.val) / 4 = i.val := by omega
    have h2 : (4 * i.val + j.val) % 4 = j.val := by omega
    simp only [h1, h2]

end Cert.ReconLoss

end
-- ==== Proof.KerSum.lean ====
/-
  The output array's total is the reconstruction term.

  Summing the [4, 8, 128] output array picks out, for each row block, its one non-zero entry: the row block's four
  column tiles added in order from zero. Each tile is the sum of the squared residuals over its 1024 × 2048 entries
  (four chunks of 256 rows), and the sixteen tiles partition the matrix, so the total is the sum of the squared
  residuals over the whole [4096, 8192] matrix.
-/
import proofs.«134916_j36524401885311_2_alg».proof.Proof.KerArray
import proofs.«134916_j36524401885311_2_alg».proof.Proof.KerTile
import proofs.«134916_j36524401885311_2_alg».proof.Proof.KerScalars
import proofs.«134916_j36524401885311_2_alg».proof.Proof.KerHost
import proofs.«134916_j36524401885311_2_alg».proof.Proof.GridSum

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

/-- What the scratch cell holds after the last column block of row block `i`: its four tiles, in order, from zero. -/
theorem row_acc (c : Dev nD) (i : Fin 4) :
    accN m c (4 * i.val + 3)
      = (((0 + tileN m c (4 * i.val)) + tileN m c (4 * i.val + 1)) + tileN m c (4 * i.val + 2)) + tileN m c (4 * i.val + 3) := by
  rw [accN_step m c (4 * i.val + 2) (by omega), accN_step m c (4 * i.val + 1) (by omega),
    accN_step m c (4 * i.val) (by omega), accN_start m c (4 * i.val) (by omega)]

/-- The output array's total is the sum of the squared residuals over the whole matrix. -/
theorem sumOut_outG (c : Dev nD) (j : S_.Idx) :
    sumOut (outG m c) j = Cert.ReconLoss.recon (V m c main_arg0) (V m c main_v8) (V m c main_v7) := by
  rw [sumOut_apply]
  have h1 : ∀ i : Fin 4, (∑ r : Fin 8, ∑ l : Fin 128, outG m c (ix3 i r l)) = accN m c (4 * i.val + 3) :=
    fun i => sum_corner (accN m c (4 * i.val + 3))
  rw [Finset.sum_congr rfl fun i _ => (h1 i).trans (row_acc m c i)]
  exact Cert.ReconLoss.grid_total (tileN m c) (sqres m c)
    (fun n hn => tileN_eq_sum m c n (lt_of_lt_of_eq hn N_0.symm) (V9_apply m c))

end Cert.KernelIdeal.KVal

end
-- ==== Proof.KerRun.lean ====
/-
  The kernel program's run, read back: its result is the loss's last operations on the reconstruction term, the two
  sums of squares and the sum of the squared column sums of the sample embedding — each a plain sum over coordinates
  of the argument arrays (the embeddings being the transposed feature matrix and the gathered, clamped sample
  table) — and its argument arrays end as they began.
-/
import proofs.«134916_j36524401885311_2_alg».proof.Proof.KerSum

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen
open Cert.ReferenceIdeal.RefValue (wemd hemb)

/-- The program's result as a function of its four argument arrays. -/
def kerOut (X : FVec Ideal S4096x8192 .f32) (ids : IVec S8192 32) (Wt : FVec Ideal S10x4096 .f32)
    (Hw : FVec Ideal S100000x10 .f32) : FVec Ideal S_ .f32 :=
  Cert.ReconLoss.lossTail (fun _ => Cert.ReconLoss.recon X (wemd Wt) (hemb ids Hw))
    (fun _ => Cert.ReconLoss.sumsqH (hemb ids Hw)) (fun _ => Cert.ReconLoss.sumColsumSq (hemb ids Hw))
    (fun _ => Cert.ReconLoss.sumsqW (wemd Wt))

variable (m : (ℓ : Loc nD τ sig) → Buf (Elt Ideal) ℓ) (ρ : Dev nD → PrngReg)

/-- What the host operations after the region leave in the result buffer. -/
theorem result_eq (c : Dev nD) :
    Pipeline.afterTail₀ cfgs (dats m) 0 (V0 m) [hostOps1] c main_v27
      = kerOut (m ((c : Thread nD τ).loc main_arg0)) (m ((c : Thread nD τ).loc main_arg1))
          (m ((c : Thread nD τ).loc main_arg2)) (m ((c : Thread nD τ).loc main_arg3)) := by
  rw [tail_eq, final_out]
  have a : sumOut (outG m c) = fun _ => Cert.ReconLoss.recon (V m c main_arg0) (V m c main_v8) (V m c main_v7) :=
    funext fun j => sumOut_outG m c j
  have b : sumsqHK (hembK m c) = fun _ => Cert.ReconLoss.sumsqH (V m c main_v7) := funext fun j => sumsqHK_apply _ j
  have d : colsumSqK (hembK m c) = fun _ => Cert.ReconLoss.sumColsumSq (V m c main_v7) := funext fun j => colsumSqK_apply _ j
  have e : sumsqWK (wembK m c) = fun _ => Cert.ReconLoss.sumsqW (V m c main_v8) := funext fun j => sumsqWK_apply _ j
  rw [a, b, d, e, V7_eq, V8_eq, V_main_arg0]
  rfl

/-- The run: the result buffer at `kerOut` of the argument arrays, the arguments unchanged. -/
theorem run : θ_run defs (onTc (τ := τ) (main (F := Ideal))) ⟨m, fun _ => 0, ρ⟩ (fun r => ∀ c : Dev nD,
      r.2.mem ((c.tc : Thread nD τ).loc main_v27)
        = kerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v27 (Pipeline.mem_restRefs_of main_v27 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KVal

end
-- ==== Proof.RefRead.lean ====
/-
  The reference's result, read as sums over coordinates.

  `refOut` applies the last operations to four scalars, each the host's sum over both axes of a matrix, taken from
  the constant zero. At the extended reals such a sum is the sum of all the entries, which over a rank-2 index set is
  the double sum over the two coordinates. What is summed is then read entry by entry: a product of two matrices at
  (i, j) is the sum over the contracted coordinate, a transposed matrix at (j, i) is the matrix at (i, j), a
  broadcast scalar is that scalar everywhere; and the trace's mask — the row number plus zero compared with the column
  number — keeps exactly the diagonal, so the masked matrix summed over both axes is the sum of the diagonal.
-/
import proofs.«134916_j36524401885311_2_alg».proof.Proof.RefRun
import proofs.«134916_j36524401885311_2_alg».proof.Proof.LossSpec
import proofs.«134916_j36524401885311_2_alg».proof.Proof.LibDense
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

/-! ## The pieces -/

/-- The host's sum of a matrix over both axes from the constant zero, at the scalar's one index: the double sum of
    the entries over the two coordinates. -/
theorem sumAll2 {n0 n1 : Nat} (x : FVec Ideal (⟨2, ![n0, n1]⟩ : Shape) .f32)
    (h : (⟨2, ![n0, n1]⟩ : Shape).ReducesTo [0, 1] S_) (hu : 0 < S_.numel) (j : S_.Idx) :
    Host.reduceAdd x (constant (F := Ideal) S_ .f32 0x00000000#32) h hu j
      = ∑ a : Fin n0, ∑ b : Fin n1, x (ix2 a b) := by
  show Ideal.hostReduceAdd h x (Ideal.ofBits .f32 0x00000000#32) j = _
  rw [Ideal.hostReduceAdd_total h (fun b => b.elim0) x _ j, Ideal.ofBits_zero_f32, zero_add, sum_idx2]

/-- A scalar broadcast to any shape reads the scalar everywhere. -/
theorem bcast0_apply {t : Shape} {α : Type} (h : S_.BroadcastsInDim t (![] : Fin 0 → Fin t.rank)) (x : S_.Idx → α)
    (j : t.Idx) : broadcastInDim t ![] h x j = x ix0 :=
  broadcastInDim_apply ![] h x j ix0 (fun a => a.elim0)

/-- The residual matrix at (p, q): the data entry minus the rank-10 reconstruction. -/
theorem residV_apply (X : FVec Ideal S4096x8192 .f32) (W : FVec Ideal S4096x10 .f32) (H : FVec Ideal S8192x10 .f32)
    (p : Fin 4096) (q : Fin 8192) : residV X W H (ix2 p q) = Cert.ReconLoss.resid X W H p q := by
  unfold residV Cert.ReconLoss.resid
  rw [subf_apply]
  refine congrArg (X (ix2 p q) - ·) ?_
  refine (Cert.LibDense.dotGeneral_plain (M := 4096) (K := 10) (N := 8192)
    dot_S4096x10_S10x8192_S4096x8192_1_0_0_1_n_n_wf none .single W _ p q).trans ?_
  exact Finset.sum_congr rfl fun k _ => congrArg (W (ix2 p k) * ·) (transpose_ix2_apply H _ k q)

/-- The trace's mask at (i, k): one on the diagonal, zero off it. -/
theorem diag_mask : ∀ i k : Fin 10,
    IntOp.cmpi .eq (IntOp.addi (BitVec.ofNat 32 i.val) 0#32) (BitVec.ofNat 32 k.val) = if i = k then 1#1 else 0#1 := by
  decide

/-! ## The four scalars -/

/-- The reconstruction scalar is the sum of the squared residuals over the whole matrix. -/
theorem reconV_eq (X : FVec Ideal S4096x8192 .f32) (W : FVec Ideal S4096x10 .f32) (H : FVec Ideal S8192x10 .f32) :
    reconV X W H = fun _ => Cert.ReconLoss.recon X W H :=
  funext fun j =>
    (sumAll2 (n0 := 4096) (n1 := 8192) (mulf (residV X W H) (residV X W H)) reducesTo_S4096x8192_S_d0_1 h_S_ j).trans
      (Finset.sum_congr rfl fun p _ => Finset.sum_congr rfl fun q _ => by
        rw [mulf_apply, residV_apply])

/-- The two sums of squares. -/
theorem sumsqHV_eq (H : FVec Ideal S8192x10 .f32) : sumsqHV H = fun _ => Cert.ReconLoss.sumsqH H :=
  funext fun j =>
    (sumAll2 (n0 := 8192) (n1 := 10) (mulf H H) reducesTo_S8192x10_S_d0_1 h_S_ j).trans
      (Finset.sum_congr rfl fun a _ => Finset.sum_congr rfl fun c _ => mulf_apply H H (ix2 a c))

theorem sumsqWV_eq (W : FVec Ideal S4096x10 .f32) : sumsqWV W = fun _ => Cert.ReconLoss.sumsqW W :=
  funext fun j =>
    (sumAll2 (n0 := 4096) (n1 := 10) (mulf W W) reducesTo_S4096x10_S_d0_1 h_S_ j).trans
      (Finset.sum_congr rfl fun p _ => Finset.sum_congr rfl fun k _ => mulf_apply W W (ix2 p k))

/-- The masked matrix at (i, k): the entry on the diagonal, zero off it. -/
theorem masked_apply (M : FVec Ideal S10x10 .f32) (i k : Fin 10) :
    select
      (cmpi .eq (addi (iotaInDim S10x10 32 0) (broadcastInDim S10x10 ![] bcast_S_S10x10 (constantI S_ 32 0#32)))
        (iotaInDim S10x10 32 1))
      M (broadcastInDim S10x10 ![] bcast_S_S10x10 (constant (F := Ideal) S_ .f32 0x00000000#32)) (ix2 i k)
      = if i = k then M (ix2 i k) else 0 := by
  show Scalar.select
      (IntOp.cmpi .eq
        (IntOp.addi (BitVec.ofNat 32 i.val) (broadcastInDim S10x10 ![] bcast_S_S10x10 (constantI S_ 32 0#32) (ix2 i k)))
        (BitVec.ofNat 32 k.val))
      (M (ix2 i k)) (broadcastInDim S10x10 ![] bcast_S_S10x10 (constant (F := Ideal) S_ .f32 0x00000000#32) (ix2 i k)) = _
  rw [bcast0_apply, bcast0_apply, constantI_apply, constant_apply, Ideal.ofBits_zero_f32, diag_mask]
  by_cases hik : i = k
  · rw [if_pos hik, if_pos hik, select_one]
  · rw [if_neg hik, if_neg hik, select_zero]

/-- The trace as the reference takes it is the sum of the diagonal. -/
theorem traceV_apply (M : FVec Ideal S10x10 .f32) (j : S_.Idx) : traceV M j = ∑ i : Fin 10, M (ix2 i i) := by
  refine (sumAll2 (n0 := 10) (n1 := 10) _ reducesTo_S10x10_S_d0_1 h_S_ j).trans ?_
  refine Finset.sum_congr rfl fun i _ => ?_
  rw [Finset.sum_congr rfl fun k _ => masked_apply M i k, Finset.sum_ite_eq, if_pos (Finset.mem_univ i)]

/-- The matrix `Hᵀ · 𝟙 · H` on its diagonal: at (c, c) the sum over b of (the sum over a of `H a c` times the ones
    matrix's entry) times `H b c`. -/
theorem gramV_diag (H : FVec Ideal S8192x10 .f32) (c : Fin 10) :
    gramV H (ix2 c c)
      = ∑ b : Fin 8192, (∑ a : Fin 8192, H (ix2 a c) * Ideal.ofBits .f32 0x3F800000#32) * H (ix2 b c) := by
  unfold gramV
  refine (Cert.LibDense.dotGeneral_plain (M := 10) (K := 8192) (N := 10)
    dot_S10x8192_S8192x10_S10x10_1_0_0_1_n_n_wf none .single _ H c c).trans ?_
  refine Finset.sum_congr rfl fun b _ => congrArg (· * H (ix2 b c)) ?_
  refine (Cert.LibDense.dotGeneral_plain (M := 10) (K := 8192) (N := 8192)
    dot_S10x8192_S8192x8192_S10x8192_1_0_0_1_n_n_wf none .single _ _ c b).trans ?_
  refine Finset.sum_congr rfl fun a _ => ?_
  rw [transpose_ix2_apply, bcast0_apply, constant_apply]

/-- The trace scalar is the trace of `Hᵀ · 𝟙 · H` as the products are taken. -/
theorem traceV_gramV_eq (H : FVec Ideal S8192x10 .f32) :
    traceV (gramV H) = fun _ => Cert.ReconLoss.traceOnes (Ideal.ofBits .f32 0x3F800000#32) H :=
  funext fun j => (traceV_apply (gramV H) j).trans (Finset.sum_congr rfl fun c _ => gramV_diag H c)

/-! ## The result -/

/-- The reference's result is the last operations applied to the four sums. -/
theorem refOut_eq (X : FVec Ideal S4096x8192 .f32) (ids : IVec S8192 32) (Wt : FVec Ideal S10x4096 .f32)
    (Hw : FVec Ideal S100000x10 .f32) :
    refOut X ids Wt Hw
      = Cert.ReconLoss.lossTail (fun _ => Cert.ReconLoss.recon X (wemd Wt) (hemb ids Hw))
          (fun _ => Cert.ReconLoss.sumsqH (hemb ids Hw))
          (fun _ => Cert.ReconLoss.traceOnes (Ideal.ofBits .f32 0x3F800000#32) (hemb ids Hw))
          (fun _ => Cert.ReconLoss.sumsqW (wemd Wt)) := by
  unfold refOut
  rw [reconV_eq, sumsqHV_eq, traceV_gramV_eq, sumsqWV_eq]

end Cert.ReferenceIdeal.RefValue

end
-- ==== Proof.EmbReal.lean ====
/-
  Real-valuedness of the sample embedding's entries.

  An extended real clipped into [0, 1] lies between the real numbers 0 and 1, so it is a real number. A gather
  returns, at every index, some entry of its table, so a gather from a real-valued table is real-valued.
-/
import proofs.«134916_j36524401885311_2_alg».proof.Proof.LossLaws
import proofs.«134916_j36524401885311_2_alg».proof.Proof.Gen.ReferenceIdeal

noncomputable section

open scoped BigOperators

namespace Cert.ReconLoss

open Idealize.ShloMosaic Idealize.ShloMosaic.ValueIdx

/-- The single-precision word 0 denotes the number zero. -/
theorem ofBits_zero_f32' : Ideal.ofBits .f32 0x00000000#32 = 0 := by
  simp [Ideal.ofBits, Ideal.ieee]

/-- An extended real between two real numbers is a real number. -/
theorem real_of_between {y : EReal} {a b : ℝ} (ha : (a : EReal) ≤ y) (hb : y ≤ (b : EReal)) :
    ∃ r : ℝ, y = (r : EReal) :=
  ⟨y.toReal, (EReal.coe_toReal (ne_top_of_le_ne_top (EReal.coe_ne_top b) hb)
    (ne_bot_of_le_ne_bot (EReal.coe_ne_bot a) ha)).symm⟩

/-- A value clipped into [0, 1] (the upper bound 1 and the lower bound 0 given by their single-precision words) is a
    real number: it is at least 0 and at most 1. -/
theorem clip01_real (x : EReal) :
    ∃ r : ℝ, min (Idealize.ShloMosaic.Ideal.ofBits .f32 0x3F800000#32)
      (max (Idealize.ShloMosaic.Ideal.ofBits .f32 0x00000000#32) x) = (r : EReal) := by
  rw [ofBits_one_f32, ofBits_zero_f32']
  have h0 : ((0 : ℝ) : EReal) ≤ min 1 (max 0 x) := by
    rw [EReal.coe_zero]; exact le_min zero_le_one (le_max_left _ _)
  have h1 : min 1 (max 0 x) ≤ ((1 : ℝ) : EReal) := by
    rw [EReal.coe_one]; exact min_le_left _ _
  exact real_of_between h0 h1

/-- A gather reads its table at some index, so from a real-valued table it returns real numbers. -/
theorem gather_real_of {s si t : Shape} {w : Nat} (d : GatherDims s si t) (T : s.Idx → EReal)
    (hT : ∀ i, ∃ r : ℝ, T i = (r : EReal)) (idx : IVec si w) (j : t.Idx) :
    ∃ r : ℝ, Host.gather d T idx j = (r : EReal) := by
  unfold Host.gather
  exact hT _

/-- The gather of whole rows of the [100000, 10] table at the [8192, 1] column of row numbers is real-valued when the
    table is. -/
theorem gather_real (T : FVec Ideal ⟨2, ![100000, 10]⟩ .f32) (hT : ∀ i, ∃ r : ℝ, T i = (r : EReal))
    (idx : IVec ⟨2, ![8192, 1]⟩ 32) (j : (⟨2, ![8192, 10]⟩ : Shape).Idx) :
    ∃ r : ℝ, Host.gather Cert.ReferenceIdeal.gather_S100000x10_S8192x1_S8192x10_1_0_n_n_0_1_110 T idx j = (r : EReal) :=
  gather_real_of _ T hT idx j

end Cert.ReconLoss

end
-- ==== Proof.lean ====
/-
  The certificate: a tiled sum of squared residuals against one whole sum, and two forms of a trace.

  Both programs compute, from the data matrix X [4096, 8192], the sample numbers, the feature matrix and the sample
  table, the loss  recon / n + (1/2) · (tr − ‖H‖²) / n + κ · (‖H‖² + ‖W‖²) / n,  where W is the transposed feature
  matrix, H the rows of the sample table (clamped to [0, 1]) at the sample numbers, and recon the sum over the whole
  matrix of the squared residuals X − W Hᵀ. They differ in two places. The kernel adds the squared residuals tile by
  tile (sixteen tiles of 1024 × 2048, each in four chunks of 256 rows, each row block's total parked in one entry of a
  small output array that the host then sums): on the extended reals addition is commutative and associative, so any
  grouping of the same terms is the same sum. And where the reference takes the trace of Hᵀ · 𝟙 · H with 𝟙 the
  all-ones matrix, the kernel sums the squared column sums of H: the entries of H lie in [0, 1], hence are real
  numbers, and for real numbers a sum times a sum distributes, so the two agree. Everything else is the same
  operations on the same values. No step needs the inputs to be finite beyond what the clamp already gives.
-/
import proofs.«134916_j36524401885311_2_alg».proof.Defs
import proofs.«134916_j36524401885311_2_alg».proof.Proof.Gen.Kernel
import proofs.«134916_j36524401885311_2_alg».proof.Proof.Gen.Kernel.Frame
import proofs.«134916_j36524401885311_2_alg».proof.Proof.Gen.KernelIdeal
import proofs.«134916_j36524401885311_2_alg».proof.Proof.Gen.KernelIdeal.Frame
import proofs.«134916_j36524401885311_2_alg».proof.Proof.Gen.ReferenceIdeal
import proofs.«134916_j36524401885311_2_alg».proof.Proof.Gen.Pre_finite_inputs
import proofs.«134916_j36524401885311_2_alg».proof.Proof.KerRun
import proofs.«134916_j36524401885311_2_alg».proof.Proof.RefRead
import proofs.«134916_j36524401885311_2_alg».proof.Proof.LossLaws
import proofs.«134916_j36524401885311_2_alg».proof.Proof.EmbReal
import Idealize.ShloMosaic.Adequacy
import Idealize.ShloMosaic.Init

noncomputable section

namespace Cert.Proof

open Idealize.ShloMosaic Idealize.SL.Sem Idealize.ShloMosaic.ValueIdx
open Cert.ReferenceIdeal.RefValue (wemd hemb refOut refOut_eq)
open Cert.KernelIdeal.KVal (kerOut)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Every entry of the sample embedding is a real number: it is an entry of the table clamped to [0, 1]. -/
theorem hemb_real (ids : IVec Cert.ReferenceIdeal.S8192 32) (Hw : FVec Ideal Cert.ReferenceIdeal.S100000x10 .f32)
    (a : Fin 8192) (c : Fin 10) : ∃ r : ℝ, hemb ids Hw (ix2 a c) = (r : EReal) :=
  Cert.ReconLoss.gather_real _ (fun i => Cert.ReconLoss.clip01_real (Hw i)) _ _

/-- The two results are one function of the arguments: the trace of Hᵀ · 𝟙 · H is the sum of the squared column sums. -/
theorem out_eq (X : FVec Ideal Cert.ReferenceIdeal.S4096x8192 .f32) (ids : IVec Cert.ReferenceIdeal.S8192 32)
    (Wt : FVec Ideal Cert.ReferenceIdeal.S10x4096 .f32) (Hw : FVec Ideal Cert.ReferenceIdeal.S100000x10 .f32) :
    refOut X ids Wt Hw = kerOut X ids Wt Hw := by
  rw [refOut_eq, Cert.ReconLoss.traceOnes_eq_sumColsumSq _ (hemb_real ids Hw)]
  rfl

theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact out_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
